-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S3 : Shape := ⟨1, ![3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S4x4096x3 .f32) (main_arg1 : FVec F S4x4096x3 .f32) (main_arg2 : FVec F S3 .f32) (main_arg3 : FVec F S3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S4x4096x3 : Shape := ⟨3, ![4, 4096, 3]⟩
abbrev S3 : Shape := ⟨1, ![3]⟩
abbrev S_ : Shape := ⟨0, ![]⟩
abbrev S1 : Shape := ⟨1, ![1]⟩
abbrev S1x3 : Shape := ⟨2, ![1, 3]⟩
abbrev S3x3 : Shape := ⟨2, ![3, 3]⟩
abbrev S4x3x4096 : Shape := ⟨3, ![4, 3, 4096]⟩
abbrev S4x4096x1 : Shape := ⟨3, ![4, 4096, 1]⟩
abbrev S1x1024x3 : Shape := ⟨3, ![1, 1024, 3]⟩
abbrev S1x3x1024 : Shape := ⟨3, ![1, 3, 1024]⟩
abbrev S1x1024x1 : Shape := ⟨3, ![1, 1024, 1]⟩
abbrev S1024x3 : Shape := ⟨2, ![1024, 3]⟩
abbrev S1024x1 : Shape := ⟨2, ![1024, 1]⟩
abbrev S3x1024 : Shape := ⟨2, ![3, 1024]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 68
  | .vmem => 10
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S3, .f32⟩
  | .hbm, ⟨3, _⟩ => ⟨S3, .f32⟩
  | .hbm, ⟨4, _⟩ => ⟨S3, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S1, .f32⟩
  | .hbm, ⟨31, _⟩ => ⟨S3, .f32⟩
  | .hbm, ⟨32, _⟩ => ⟨S1x3, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S3, .f32⟩
  | .hbm, ⟨38, _⟩ => ⟨S1x3, .f32⟩
  | .hbm, ⟨39, _⟩ => ⟨S1, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S3, .f32⟩
  | .hbm, ⟨44, _⟩ => ⟨S1x3, .f32⟩
  | .hbm, ⟨45, _⟩ => ⟨S3x3, .f32⟩
  | .hbm, ⟨46, _⟩ => ⟨S3x3, .i32⟩
  | .hbm, ⟨47, _⟩ => ⟨S3x3, .i32⟩
  | .hbm, ⟨48, _⟩ => ⟨S_, .i32⟩
  | .hbm, ⟨49, _⟩ => ⟨S3x3, .i32⟩
  | .hbm, ⟨50, _⟩ => ⟨S3x3, .i32⟩
  | .hbm, ⟨51, _⟩ => ⟨S3x3, .i1⟩
  | .hbm, ⟨52, _⟩ => ⟨S3x3, .f32⟩
  | .hbm, ⟨53, _⟩ => ⟨S3x3, .f32⟩
  | .hbm, ⟨54, _⟩ => ⟨S3x3, .f32⟩
  | .hbm, ⟨55, _⟩ => ⟨S3x3, .f32⟩
  | .hbm, ⟨56, _⟩ => ⟨S3x3, .f32⟩
  | .hbm, ⟨57, _⟩ => ⟨S3x3, .f32⟩
  | .hbm, ⟨58, _⟩ => ⟨S3x3, .f32⟩
  | .hbm, ⟨59, _⟩ => ⟨S3x3, .f32⟩
  | .hbm, ⟨60, _⟩ => ⟨S3x3, .f32⟩
  | .hbm, ⟨61, _⟩ => ⟨S4x3x4096, .f32⟩
  | .hbm, ⟨62, _⟩ => ⟨S4x4096x3, .f32⟩
  | .hbm, ⟨63, _⟩ => ⟨S4x4096x1, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S3x3, .f32⟩
  | .local _ .vmem, ⟨5, _⟩ => ⟨S3, .f32⟩
  | .local _ .vmem, ⟨6, _⟩ => ⟨S1x1024x3, .f32⟩
  | .local _ .vmem, ⟨7, _⟩ => ⟨S1x1024x3, .f32⟩
  | .local _ .vmem, ⟨8, _⟩ => ⟨S1x1024x1, .f32⟩
  | .local _ .vmem, ⟨9, _⟩ => ⟨S1x1024x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50_0 : Ref sig .tc := ⟨.hbm, 62, rfl⟩
abbrev main_v50_1 : Ref sig .tc := ⟨.hbm, 63, rfl⟩
abbrev main_cst_6 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S3x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  reducesTo_S3_S_d0 : S3.ReducesTo [0] S_
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  bcast_S_S1 : S_.BroadcastsInDim S1 (![] : Fin 0 → Fin S1.rank)
  concatenates_S1_S1_S1_S3_d0 : Shape.Concatenates [S1, S1, S1] S3 0
  bcast_S3_S1x3_1 : S3.BroadcastsInDim S1x3 (![1] : Fin 1 → Fin S1x3.rank)
  concatenates_S1x3_S1x3_S1x3_S3x3_d0 : Shape.Concatenates [S1x3, S1x3, S1x3] S3x3 0
  bcast_S_S3x3 : S_.BroadcastsInDim S3x3 (![] : Fin 0 → Fin S3x3.rank)
  transposes_S3x3_S3x3_1_0 : S3x3.Transposes [1, 0] S3x3
  transposes_S4x4096x3_S4x3x4096_0_2_1 : S4x4096x3.Transposes [0, 2, 1] S4x3x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S3x3_S3x3_0_0 : ∀ a, (![0, 0] : Fin 2 → Nat) a + S3x3.size a ≤ S3x3.size a
  h_S3x3 : 0 < S3x3.numel
  shapeCasts_S3x3_S3x3 : S3x3.ShapeCasts S3x3
  inb_S3_S3_0 : ∀ a, (![0] : Fin 1 → Nat) a + S3.size a ≤ S3.size a
  h_S3 : 0 < S3.numel
  shapeCasts_S3_S1x3 : S3.ShapeCasts S1x3
  broadcasts_S1x3_S1024x3 : S1x3.Broadcasts S1024x3
  shapeCasts_S1024x3_S1x1024x3 : S1024x3.ShapeCasts S1x1024x3
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x1024_S1024 : S3x1024.Reduces [0] S1024
  shapeCasts_S1024_S1x1024 : S1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  reduces_S1024x3_S1024 : S1024x3.Reduces [1] S1024
  reducesTo_S4x4096x1_S_d0_1_2 : S4x4096x1.ReducesTo [0, 1, 2] S_
  dot_S3x3_S3x3_S3x3_1_0_0_1_n_n_wf : DotDims.WF S3x3 S3x3 S3x3 [1] [0] [0] [1] [] []
  dot_S1024x3_S3x3_S1024x3_1_0_0_1_n_n_wf : DotDims.WF S1024x3 S3x3 S1024x3 [1] [0] [0] [1] [] []
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x4096x3.size a
  hwx0_0 : ∀ i : grid0.Coords, EltTy.bits .f32 = 32 ∨ (Rect.block (s := S4x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x4096.size a
  hwx0_1 : ∀ i : grid0.Coords, EltTy.bits .f32 = 32 ∨ (Rect.block (s := S4x3x4096) S1x3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x3.size a ≤ S3x3.size a
  hwx0_2 : ∀ i : grid0.Coords, EltTy.bits .f32 = 32 ∨ (Rect.block (s := S3x3) S3x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3.size a ≤ S3.size a
  hwx0_3 : ∀ i : grid0.Coords, EltTy.bits .f32 = 32 ∨ (Rect.block (s := S3) S3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x3.size a ≤ S4x4096x3.size a
  hwx0_4 : ∀ i : grid0.Coords, EltTy.bits .f32 = 32 ∨ (Rect.block (s := S4x4096x3) S1x1024x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1.size a ≤ S4x4096x1.size a
  hwx0_5 : ∀ i : grid0.Coords, EltTy.bits .f32 = 32 ∨ (Rect.block (s := S4x4096x1) S1x1024x1.size (cc0_transform_5 i) (hinb0_5 i)).WholeWords (EltTy.packing .f32)

variable [Facts₀]

def dot_S3x3_S3x3_S3x3_1_0_0_1_n_n : DotDims S3x3 S3x3 S3x3 where
  lhsContracting := [1]
  rhsContracting := [0]
  lhsNonContracting := [0]
  rhsNonContracting := [1]
  lhsBatch := []
  rhsBatch := []
  wf := dot_S3x3_S3x3_S3x3_1_0_0_1_n_n_wf
def dot_S1024x3_S3x3_S1024x3_1_0_0_1_n_n : DotDims S1024x3 S3x3 S1024x3 where
  lhsContracting := [1]
  rhsContracting := [0]
  lhsNonContracting := [0]
  rhsNonContracting := [1]
  lhsBatch := []
  rhsBatch := []
  wf := dot_S1024x3_S3x3_S1024x3_1_0_0_1_n_n_wf
def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S3x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50_0) S1x1024x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v50_1) S1x1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) | 5 => fun _ => false | ⟨_ + 6, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S3 : Shape := ⟨1, ![3]⟩
abbrev S_ : Shape := ⟨0, ![]⟩
abbrev S1 : Shape := ⟨1, ![1]⟩
abbrev S1x3 : Shape := ⟨2, ![1, 3]⟩
abbrev S3x3 : Shape := ⟨2, ![3, 3]⟩
abbrev S1x1x3 : Shape := ⟨3, ![1, 1, 3]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S3, .f32⟩
  | .hbm, ⟨3, _⟩ => ⟨S3, .f32⟩
  | .hbm, ⟨4, _⟩ => ⟨S3, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S1, .f32⟩
  | .hbm, ⟨31, _⟩ => ⟨S3, .f32⟩
  | .hbm, ⟨32, _⟩ => ⟨S1x3, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S3, .f32⟩
  | .hbm, ⟨38, _⟩ => ⟨S1x3, .f32⟩
  | .hbm, ⟨39, _⟩ => ⟨S1, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S3, .f32⟩
  | .hbm, ⟨44, _⟩ => ⟨S1x3, .f32⟩
  | .hbm, ⟨45, _⟩ => ⟨S3x3, .f32⟩
  | .hbm, ⟨46, _⟩ => ⟨S3x3, .i32⟩
  | .hbm, ⟨47, _⟩ => ⟨S3x3, .i32⟩
  | .hbm, ⟨48, _⟩ => ⟨S_, .i32⟩
  | .hbm, ⟨49, _⟩ => ⟨S3x3, .i32⟩
  | .hbm, ⟨50, _⟩ => ⟨S3x3, .i32⟩
  | .hbm, ⟨51, _⟩ => ⟨S3x3, .i1⟩
  | .hbm, ⟨52, _⟩ => ⟨S3x3, .f32⟩
  | .hbm, ⟨53, _⟩ => ⟨S3x3, .f32⟩
  | .hbm, ⟨54, _⟩ => ⟨S3x3, .f32⟩
  | .hbm, ⟨55, _⟩ => ⟨S3x3, .f32⟩
  | .hbm, ⟨56, _⟩ => ⟨S3x3, .f32⟩
  | .hbm, ⟨57, _⟩ => ⟨S3x3, .f32⟩
  | .hbm, ⟨58, _⟩ => ⟨S3x3, .f32⟩
  | .hbm, ⟨59, _⟩ => ⟨S3x3, .f32⟩
  | .hbm, ⟨60, _⟩ => ⟨S4x4096x3, .f32⟩
  | .hbm, ⟨61, _⟩ => ⟨S1x1x3, .f32⟩
  | .hbm, ⟨62, _⟩ => ⟨S4x4096x3, .f32⟩
  | .hbm, ⟨63, _⟩ => ⟨S4x4096x3, .f32⟩
  | .hbm, ⟨64, _⟩ => ⟨S4x4096x3, .f32⟩
  | .hbm, ⟨65, _⟩ => ⟨S_, .f32⟩
  | .hbm, ⟨66, _⟩ => ⟨S4x4096, .f32⟩
  | .hbm, ⟨67, _⟩ => ⟨S4x4096x3, .f32⟩
  | .hbm, ⟨68, _⟩ => ⟨S_, .f32⟩
  | .hbm, ⟨69, _⟩ => ⟨S4x4096, .f32⟩
  | .hbm, ⟨70, _⟩ => ⟨S4x4096x4096, .f32⟩
  | .hbm, ⟨71, _⟩ => ⟨S4x4096x1, .f32⟩
  | .hbm, ⟨72, _⟩ => ⟨S4x1x4096, .f32⟩
  | .hbm, ⟨73, _⟩ => ⟨S4x4096x4096, .f32⟩
  | .hbm, ⟨74, _⟩ => ⟨S4x4096x4096, .f32⟩
  | .hbm, ⟨75, _⟩ => ⟨S4x4096x4096, .f32⟩
  | .hbm, ⟨76, _⟩ => ⟨S_, .f32⟩
  | .hbm, ⟨77, _⟩ => ⟨S4x4096x4096, .f32⟩
  | .hbm, ⟨78, _⟩ => ⟨S4x4096x4096, .f32⟩
  | .hbm, ⟨79, _⟩ => ⟨S4x4096x4096, .f32⟩
  | .hbm, ⟨80, _⟩ => ⟨S_, .f32⟩
  | .hbm, ⟨81, _⟩ => ⟨S4x4096, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_8 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩

abbrev nD : Nat := 1
abbrev τ : Topo := Topo.v7x

variable {F : FTy → Type} [FloatOps F]

class Facts₀ : Prop where
  reducesTo_S3_S_d0 : S3.ReducesTo [0] S_
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  bcast_S_S1 : S_.BroadcastsInDim S1 (![] : Fin 0 → Fin S1.rank)
  concatenates_S1_S1_S1_S3_d0 : Shape.Concatenates [S1, S1, S1] S3 0
  bcast_S3_S1x3_1 : S3.BroadcastsInDim S1x3 (![1] : Fin 1 → Fin S1x3.rank)
  concatenates_S1x3_S1x3_S1x3_S3x3_d0 : Shape.Concatenates [S1x3, S1x3, S1x3] S3x3 0
  bcast_S_S3x3 : S_.BroadcastsInDim S3x3 (![] : Fin 0 → Fin S3x3.rank)
  bcast_S3_S1x1x3_2 : S3.BroadcastsInDim S1x1x3 (![2] : Fin 1 → Fin S1x1x3.rank)
  bcast_S1x1x3_S4x4096x3_0_1_2 : S1x1x3.BroadcastsInDim S4x4096x3 (![0, 1, 2] : Fin 3 → Fin S4x4096x3.rank)
  reducesTo_S4x4096x3_S4x4096_d2 : S4x4096x3.ReducesTo [2] S4x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S_d0_1 : S4x4096.ReducesTo [0, 1] S_
  dot_S3x3_S3x3_S3x3_1_0_0_1_n_n_wf : DotDims.WF S3x3 S3x3 S3x3 [1] [0] [0] [1] [] []
  dot_S4x4096x3_S3x3_S4x4096x3_2_1_01_0_n_n_wf : DotDims.WF S4x4096x3 S3x3 S4x4096x3 [2] [1] [0, 1] [0] [] []
  dot_S4x4096x3_S4x4096x3_S4x4096x4096_2_2_1_1_0_0_wf : DotDims.WF S4x4096x3 S4x4096x3 S4x4096x4096 [2] [2] [1] [1] [0] [0]

variable [Facts₀]

def dot_S3x3_S3x3_S3x3_1_0_0_1_n_n : DotDims S3x3 S3x3 S3x3 where
  lhsContracting := [1]
  rhsContracting := [0]
  lhsNonContracting := [0]
  rhsNonContracting := [1]
  lhsBatch := []
  rhsBatch := []
  wf := dot_S3x3_S3x3_S3x3_1_0_0_1_n_n_wf
def dot_S4x4096x3_S3x3_S4x4096x3_2_1_01_0_n_n : DotDims S4x4096x3 S3x3 S4x4096x3 where
  lhsContracting := [2]
  rhsContracting := [1]
  lhsNonContracting := [0, 1]
  rhsNonContracting := [0]
  lhsBatch := []
  rhsBatch := []
  wf := dot_S4x4096x3_S3x3_S4x4096x3_2_1_01_0_n_n_wf
def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.Kernel.Kit.lean ====
/- The launch side of the kernel's frame: the arrays as the region finds them, the host lines around the region,
   each window's block at a grid point, the two conditions of the body in closed form over the grid, and where the
   output windows are idle. The grid is 4 x 4 x 4; its last axis walks the four key tiles of one (batch, query tile)
   pair, so a point's position modulo 4 is the key tile: the first tile initialises both outputs, the last adds the
   query norms, and both output blocks are written back after the last tile. -/
import proofs.«166168_j66391604462138_2_alg».proof.Proof.Gen.Kernel.Launch
import proofs.«166168_j66391604462138_2_alg».proof.Proof.Gen.Kernel.Skeleton
import proofs.«166168_j66391604462138_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: after the host lines that build the rotation matrix
    and transpose the target cloud. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it (the mean of the distances). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays end as launched: the source cloud and the translation are input arrays of the region (never
    written back), the target cloud and the rotation vector bypass it and no host line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).1 3).trans (((dats 0 c).arrAt_in 3 rfl _).trans ((hA c 3).trans (V_main_arg3 m c)))⟩) h

/-! ## The body's two conditions -/

/-- The first condition (the key tile is the first one), from the grid coordinates. -/
abbrev cond0_0 (i : grid0.Coords) : Prop := k0_cond1 i = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second condition (the key tile is the last one), from the grid coordinates. -/
abbrev cond0_1 (i : grid0.Coords) : Prop := (Scalar.cmpi .ne (Scalar.extui (Scalar.cmpi .eq (BitVec.ofNat 32 (i 2).val) 3#32)) 0#32) = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_5 : ∀ t : Fin cfg0.N, cfg0.idle 5 (grid0.coords t) = false := by decide +kernel
/-- The transformed-points block is stored only at the first key tile: there the window is live, -/
theorem liveAt0_4_A : ∀ t : Fin cfg0.N, t.val % 4 = 0 → cfg0.idle 4 (grid0.coords t) = false := by decide +kernel
/-- and at the other key tiles it is idle. -/
theorem idleAt0_4 : ∀ t : Fin cfg0.N, ¬t.val % 4 = 0 → cfg0.idle 4 (grid0.coords t) = true := by decide +kernel
/-- It is written back after the last key tile only. -/
theorem noFlush0_4 : ∀ t : Fin cfg0.N, ¬t.val % 4 = 3 → (cfg0.win 4).flush t = false := by decide +kernel
theorem flushAt0_4 : ∀ t : Fin cfg0.N, t.val % 4 = 3 → (cfg0.win 4).flush t = true := by decide +kernel
theorem noFlush0_5 : ∀ t : Fin cfg0.N, ¬t.val % 4 = 3 → (cfg0.win 5).flush t = false := by decide +kernel

/-! ## The staging memrefs -/

/-- One staging buffer of each output window, through which its contents are stated. -/
abbrev VO0_4 : View sig .tc .vmem S1x1024x3 .f32 := (Memref.whole cc0_stg4_0 : Memref sig .tc .vmem S1x1024x3 .f32).view
abbrev VO0_5 : View sig .tc .vmem S1x1024x1 .f32 := (Memref.whole cc0_stg5_0 : Memref sig .tc .vmem S1x1024x1 .f32).view
abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1 .f32 := win0_5.stage (cfg0.slots t 5)
abbrev hs0_5 (t : Fin cfg0.N) : (ms0_5 t).IsWhole := hstage0_5 ((cfg0.slots t 5).cast nbuf0_5)

end Cert.Kernel.Hand

end
-- ==== Proof.Kernel.RunA.lean ====
/- The body at a first key tile: it computes the transformed block (the source block times the transposed rotation,
   plus the translation), stores it, resets the running minimum to +inf, and then folds the first tile in. -/
import proofs.«166168_j66391604462138_2_alg».proof.Proof.Kernel.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a first key tile, on whole staging memrefs holding the four input blocks, the two output buffers at anything:
    the body runs to the end and leaves the inputs as they were and each output buffer with the body's stores
    written over it. -/
noncomputable def kernelRun0_A (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i)
    (x0 : Vec F S1x1024x3 .f32) (x1 : Vec F S1x3x1024 .f32) (x2 : Vec F S3x3 .f32) (x3 : Vec F S3 .f32) :
    Σ' (L4 : List (View.Piece (Elt F) S1x1024x3 .f32)), { L5 : List (View.Piece (Elt F) S1x1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)) -∗ K ⟨⟩))
          ⊢ wp frame (wpE (defs₀ (F := F)) Variants.none c none) E (cc0__nn_kernel i arg3 harg3 arg4 harg4 arg5 harg5 arg6 harg6 arg7 harg7 arg8 harg8) K } := by
  refine ⟨?_, ?_, fun E K => ?run⟩
  case run =>
    simp only [cc0__nn_kernel_eq_skeleton]; unfold cc0__nn_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact H5

end Cert.Kernel.Hand

end
-- ==== Proof.Kernel.RunB.lean ====
/- The body at a middle key tile (neither the first nor the last): it reads the transformed block, folds the tile's minimum into the running minimum, and stores nothing else. -/
import proofs.«166168_j66391604462138_2_alg».proof.Proof.Kernel.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding the target block, the transformed block `xo4` the first tile left and the running
    minimum `xo5` the tile before left: the body runs to the end, leaves the target block and the transformed block as
    they were, and the running-minimum buffer with the body's stores written over it. The source
    block, the rotation and the translation are not touched at such a point. -/
noncomputable def kernelRun0_B (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : ¬cond0_1 i)
    (x1 : Vec F S1x3x1024 .f32) (xo4 : Vec F S1x1024x3 .f32) (xo5 : Vec F S1x1024x1 .f32) :
    { L5 : List (View.Piece (Elt F) S1x1024x1 .f32) //
      ∀ (E : Set ℕ) (K : PUnit → sProp 𝕄),
        iprop(owns (c : Thread nD τ) arg4 fullShare x1 ∗ owns (c : Thread nD τ) arg7 fullShare xo4 ∗ owns (c : Thread nD τ) arg8 fullShare xo5
            ∗ (iprop(owns (c : Thread nD τ) arg4 fullShare x1 ∗ owns (c : Thread nD τ) arg7 fullShare xo4 ∗ (∃ f, arg8.view.loc (c : Thread nD τ) ↦[arg8.view.set]{fullShare} arg8.view.writes (Elt F) f L5)) -∗ K ⟨⟩))
          ⊢ wp frame (wpE (defs₀ (F := F)) Variants.none c none) E (cc0__nn_kernel i arg3 harg3 arg4 harg4 arg5 harg5 arg6 harg6 arg7 harg7 arg8 harg8) K } := by
  refine ⟨?_, fun E K => ?run⟩
  case run =>
    simp only [cc0__nn_kernel_eq_skeleton]; unfold cc0__nn_kernel_skel
    unfold owns
    iintro ⟨⟨%f1, %hf1, H1⟩, ⟨%f4, %hf4, H4⟩, ⟨%f5, %hf5, H5⟩, Hk⟩
    obtain rfl := harg4.eq_unread hf1; obtain rfl := harg7.eq_unread hf4; obtain rfl := harg8.eq_unread hf5
    sl_exec (disch := first | exact hc0 | exact hc1)
    sl_step
    iapply Hk
    isplitl [H1]
    · iexists _; isplitr; · ipureintro; exact harg4.read_unread _
      iexact H1
    isplitl [H4]
    · iexists _; isplitr; · ipureintro; exact harg7.read_unread _
      iexact H4
    iexists _; iexact H5

end Cert.Kernel.Hand

end
-- ==== Proof.Kernel.RunC.lean ====
/- The body at the last key tile: it folds the tile's minimum into the running minimum and then adds each query point's squared norm. -/
import proofs.«166168_j66391604462138_2_alg».proof.Proof.Kernel.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding the target block, the transformed block `xo4` the first tile left and the running
    minimum `xo5` the tile before left: the body runs to the end, leaves the target block and the transformed block as
    they were, and the running-minimum buffer with the body's stores written over it. The source
    block, the rotation and the translation are not touched at such a point. -/
noncomputable def kernelRun0_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : cond0_1 i)
    (x1 : Vec F S1x3x1024 .f32) (xo4 : Vec F S1x1024x3 .f32) (xo5 : Vec F S1x1024x1 .f32) :
    { L5 : List (View.Piece (Elt F) S1x1024x1 .f32) //
      ∀ (E : Set ℕ) (K : PUnit → sProp 𝕄),
        iprop(owns (c : Thread nD τ) arg4 fullShare x1 ∗ owns (c : Thread nD τ) arg7 fullShare xo4 ∗ owns (c : Thread nD τ) arg8 fullShare xo5
            ∗ (iprop(owns (c : Thread nD τ) arg4 fullShare x1 ∗ owns (c : Thread nD τ) arg7 fullShare xo4 ∗ (∃ f, arg8.view.loc (c : Thread nD τ) ↦[arg8.view.set]{fullShare} arg8.view.writes (Elt F) f L5)) -∗ K ⟨⟩))
          ⊢ wp frame (wpE (defs₀ (F := F)) Variants.none c none) E (cc0__nn_kernel i arg3 harg3 arg4 harg4 arg5 harg5 arg6 harg6 arg7 harg7 arg8 harg8) K } := by
  refine ⟨?_, fun E K => ?run⟩
  case run =>
    simp only [cc0__nn_kernel_eq_skeleton]; unfold cc0__nn_kernel_skel
    unfold owns
    iintro ⟨⟨%f1, %hf1, H1⟩, ⟨%f4, %hf4, H4⟩, ⟨%f5, %hf5, H5⟩, Hk⟩
    obtain rfl := harg4.eq_unread hf1; obtain rfl := harg7.eq_unread hf4; obtain rfl := harg8.eq_unread hf5
    sl_exec (disch := first | exact hc0 | exact hc1)
    sl_step
    iapply Hk
    isplitl [H1]
    · iexists _; isplitr; · ipureintro; exact harg4.read_unread _
      iexact H1
    isplitl [H4]
    · iexists _; isplitr; · ipureintro; exact harg7.read_unread _
      iexact H4
    iexists _; iexact H5

end Cert.Kernel.Hand

end
-- ==== Proof.Kernel.Outs.lean ====
/- What the two output buffers hold after each grid point (by recursion on the point: the transformed block is made
   at the first key tile and kept, the running minimum is reset there and folded at every tile, the query norms are
   added at the last), the proof data of the launch, and what each staging buffer holds when the body starts. -/
import proofs.«166168_j66391604462138_2_alg».proof.Proof.Kernel.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffers -/

theorem cover0_A_4 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i) (x0 : Vec F S1x1024x3 .f32) (x1 : Vec F S1x3x1024 .f32) (x2 : Vec F S3x3 .f32) (x3 : Vec F S3 .f32) (y : S1x1024x3.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S1x1024x3.size (by sl_kernel_rfl) y

/-- The transformed block a first tile leaves. -/
def out0_A_4 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i) (x0 : Vec F S1x1024x3 .f32) (x1 : Vec F S1x3x1024 .f32) (x2 : Vec F S3x3 .f32) (x3 : Vec F S3 .f32) : Vec F S1x1024x3 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

theorem cover0_A_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i) (x0 : Vec F S1x1024x3 .f32) (x1 : Vec F S1x3x1024 .f32) (x2 : Vec F S3x3 .f32) (x3 : Vec F S3 .f32) (y : S1x1024x1.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1x1024x1.size (by sl_kernel_rfl) y

/-- The running minimum a first tile leaves. -/
def out0_A_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i) (x0 : Vec F S1x1024x3 .f32) (x1 : Vec F S1x3x1024 .f32) (x2 : Vec F S3x3 .f32) (x3 : Vec F S3 .f32) : Vec F S1x1024x1 .f32 :=
  VO0_5.read (Elt F) (VO0_5.writes (Elt F) VO0_5.junk (kernelRun0_A c i arg3 harg3 arg4 harg4 arg5 harg5 arg6 harg6 arg7 harg7 arg8 harg8 hc0 hc1 x0 x1 x2 x3).2.1)

theorem cover0_B_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : ¬cond0_1 i) (x1 : Vec F S1x3x1024 .f32) (xo4 : Vec F S1x1024x3 .f32) (xo5 : Vec F S1x1024x1 .f32) (y : S1x1024x1.Idx) :
    ∃ pc ∈ (kernelRun0_B c i arg3 harg3 arg4 harg4 arg5 harg5 arg6 harg6 arg7 harg7 arg8 harg8 hc0 hc1 x1 xo4 xo5).1, y ∈ pc.1.set :=
  View.cover_of_tiledL (kernelRun0_B c i arg3 harg3 arg4 harg4 arg5 harg5 arg6 harg6 arg7 harg7 arg8 harg8 hc0 hc1 x1 xo4 xo5).1 S1x1024x1.size (by sl_kernel_rfl) y

/-- The running minimum a middle tile leaves. -/
def out0_B_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : ¬cond0_1 i) (x1 : Vec F S1x3x1024 .f32) (xo4 : Vec F S1x1024x3 .f32) (xo5 : Vec F S1x1024x1 .f32) : Vec F S1x1024x1 .f32 :=
  VO0_5.read (Elt F) (VO0_5.writes (Elt F) VO0_5.junk (kernelRun0_B c i arg3 harg3 arg4 harg4 arg5 harg5 arg6 harg6 arg7 harg7 arg8 harg8 hc0 hc1 x1 xo4 xo5).1)

theorem cover0_C_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : cond0_1 i) (x1 : Vec F S1x3x1024 .f32) (xo4 : Vec F S1x1024x3 .f32) (xo5 : Vec F S1x1024x1 .f32) (y : S1x1024x1.Idx) :
    ∃ pc ∈ (kernelRun0_C c i arg3 harg3 arg4 harg4 arg5 harg5 arg6 harg6 arg7 harg7 arg8 harg8 hc0 hc1 x1 xo4 xo5).1, y ∈ pc.1.set :=
  View.cover_of_tiledL (kernelRun0_C c i arg3 harg3 arg4 harg4 arg5 harg5 arg6 harg6 arg7 harg7 arg8 harg8 hc0 hc1 x1 xo4 xo5).1 S1x1024x1.size (by sl_kernel_rfl) y

/-- What the last tile leaves: the minimum over all keys plus the query norms. -/
def out0_C_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : cond0_1 i) (x1 : Vec F S1x3x1024 .f32) (xo4 : Vec F S1x1024x3 .f32) (xo5 : Vec F S1x1024x1 .f32) : Vec F S1x1024x1 .f32 :=
  VO0_5.read (Elt F) (VO0_5.writes (Elt F) VO0_5.junk (kernelRun0_C c i arg3 harg3 arg4 harg4 arg5 harg5 arg6 harg6 arg7 harg7 arg8 harg8 hc0 hc1 x1 xo4 xo5).1)

/-! ## The conditions from a point's position modulo 4 -/

theorem c0_of (t : Fin cfg0.N) (h : t.val % 4 = 0) : cond0_0 (grid0.coords t) := (hcond0_0 t).mpr h
theorem nc0_of (t : Fin cfg0.N) (h : ¬t.val % 4 = 0) : ¬cond0_0 (grid0.coords t) := fun h' => h ((hcond0_0 t).mp h')
theorem c1_of (t : Fin cfg0.N) (h : t.val % 4 = 3) : cond0_1 (grid0.coords t) := (hcond0_1 t).mpr h
theorem nc1_of (t : Fin cfg0.N) (h : ¬t.val % 4 = 3) : ¬cond0_1 (grid0.coords t) := fun h' => h ((hcond0_1 t).mp h')
theorem nc1_of0 (t : Fin cfg0.N) (h : t.val % 4 = 0) : ¬cond0_1 (grid0.coords t) := nc1_of t (by omega)

/-! ## What the outputs hold after each point -/

/-- The two output buffers after the body at position `n` (transformed block, running minimum): a first tile computes
    both from the point's input blocks; a later tile keeps the transformed block and folds its target block into the
    running minimum the tile before left. -/
def outsAt0 (c : Dev nD) : (n : ℕ) → n < cfg0.N → Vec F S1x1024x3 .f32 × Vec F S1x1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (c0_of ⟨0, hn⟩ (Nat.zero_mod _)) (nc1_of0 ⟨0, hn⟩ (Nat.zero_mod _)) (iblk m c 0 ⟨0, hn⟩) (iblk m c 1 ⟨0, hn⟩) (iblk m c 2 ⟨0, hn⟩) (iblk m c 3 ⟨0, hn⟩),
              out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (c0_of ⟨0, hn⟩ (Nat.zero_mod _)) (nc1_of0 ⟨0, hn⟩ (Nat.zero_mod _)) (iblk m c 0 ⟨0, hn⟩) (iblk m c 1 ⟨0, hn⟩) (iblk m c 2 ⟨0, hn⟩) (iblk m c 3 ⟨0, hn⟩))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (c0_of ⟨n + 1, hn⟩ h0) (nc1_of0 ⟨n + 1, hn⟩ h0) (iblk m c 0 ⟨n + 1, hn⟩) (iblk m c 1 ⟨n + 1, hn⟩) (iblk m c 2 ⟨n + 1, hn⟩) (iblk m c 3 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (c0_of ⟨n + 1, hn⟩ h0) (nc1_of0 ⟨n + 1, hn⟩ h0) (iblk m c 0 ⟨n + 1, hn⟩) (iblk m c 1 ⟨n + 1, hn⟩) (iblk m c 2 ⟨n + 1, hn⟩) (iblk m c 3 ⟨n + 1, hn⟩))
    else
      if h1 : (n + 1) % 4 = 3 then
        ((outsAt0 c n (Nat.lt_of_succ_lt hn)).1,
         out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (nc0_of ⟨n + 1, hn⟩ h0) (c1_of ⟨n + 1, hn⟩ h1) (iblk m c 1 ⟨n + 1, hn⟩) (outsAt0 c n (Nat.lt_of_succ_lt hn)).1 (outsAt0 c n (Nat.lt_of_succ_lt hn)).2)
      else
        ((outsAt0 c n (Nat.lt_of_succ_lt hn)).1,
         out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (nc0_of ⟨n + 1, hn⟩ h0) (nc1_of ⟨n + 1, hn⟩ h1) (iblk m c 1 ⟨n + 1, hn⟩) (outsAt0 c n (Nat.lt_of_succ_lt hn)).1 (outsAt0 c n (Nat.lt_of_succ_lt hn)).2)

/-- The point before `t`. -/
abbrev prevLt (t : Fin cfg0.N) : t.val - 1 < cfg0.N := Nat.lt_of_le_of_lt (Nat.sub_le _ _) t.isLt

theorem outsAt0_A (c : Dev nD) (t : Fin cfg0.N) (h0 : t.val % 4 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (c0_of t h0) (nc1_of0 t h0) (iblk m c 0 t) (iblk m c 1 t) (iblk m c 2 t) (iblk m c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (c0_of t h0) (nc1_of0 t h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = ((outsAt0 m c (t.val - 1) (prevLt t)).1,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (nc0_of t h0) (nc1_of t h1) (iblk m c 1 t) (outsAt0 m c (t.val - 1) (prevLt t)).1 (outsAt0 m c (t.val - 1) (prevLt t)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = ((outsAt0 m c (t.val - 1) (prevLt t)).1,
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (nc0_of t h0) (c1_of t h1) (iblk m c 1 t) (outsAt0 m c (t.val - 1) (prevLt t)).1 (outsAt0 m c (t.val - 1) (prevLt t)).2) := by
  obtain ⟨n, hn⟩ := t
  cases n with
  | zero => exact (by exfalso; (try dsimp only at h0); exact absurd (Nat.zero_mod _) h0)
  | succ n => exact (dif_neg h0).trans ((dif_pos h1).trans rfl)

/-- After a first tile the transformed block is kept. -/
theorem outsAt0_fst (c : Dev nD) (t : Fin cfg0.N) (h0 : ¬t.val % 4 = 0) :
    (outsAt0 m c t.val t.isLt).1 = (outsAt0 m c (t.val - 1) (prevLt t)).1 := by
  by_cases h1 : t.val % 4 = 3
  · rw [outsAt0_C m c t h0 h1]
  · rw [outsAt0_B m c t h0 h1]

/-! ## The proof data of the launch -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a later tile the running-minimum buffer holds what the tile before left: it is live at every point, uncut,
    and written back only after a last tile. -/
theorem before0_5_BC (c : Dev nD) (t : Fin cfg0.N) (h0 : ¬t.val % 4 = 0) (d) :
    (dats m 0 c).before 5 t d = (outsAt0 m c (t.val - 1) (prevLt t)).2 := by
  have hN : t.val < 64 := lt_of_lt_of_eq t.isLt (show cfg0.N = 64 from N_0)
  rw [Dat.before_out_kept _ 5 rfl t (by omega) (noFlush0_5 _ (by dsimp only; omega))
    (fun _ => rfl) (fun _ _ => rfl)]
  dsimp only [dats]

/-- One step back for the transformed-points buffer at a later tile: it holds what the tile before left in it. -/
theorem before0_4_step (c : Dev nD) (t : Fin cfg0.N) (h0 : ¬t.val % 4 = 0) (d) :
    (dats m 0 c).before 4 t d = (dats m 0 c).left 4 ⟨t.val - 1, prevLt t⟩ d := by
  have hN : t.val < 64 := lt_of_lt_of_eq t.isLt (show cfg0.N = 64 from N_0)
  rw [Dat.before_of_pos _ 4 t (by omega) ((cfg0.win 4).fetch_out rfl t), noFlush0_4 _ (by dsimp only; omega), if_neg Bool.false_ne_true]

/-- At a later tile the transformed-points buffer holds the block the first tile of the run left: the tile after the
    first finds what the body stored, the later ones what they found before (the window is idle there). -/
theorem before0_4_BC (c : Dev nD) : ∀ (k : ℕ) (t : Fin cfg0.N), t.val % 4 = k + 1 → ∀ d,
    (dats m 0 c).before 4 t d = (outsAt0 m c (t.val - 1) (prevLt t)).1
  | 0, t, hk, d => by
    have hN : t.val < 64 := lt_of_lt_of_eq t.isLt (show cfg0.N = 64 from N_0)
    rw [before0_4_step m c t (by omega) d]
    unfold Dat.left
    rw [liveAt0_4_A ⟨t.val - 1, prevLt t⟩ (by dsimp only; omega)]
    dsimp only
    unfold Dat.kept
    rw [Pipeline.fill_of_clip_none 4 _ (fun _ => rfl) d ((dats m 0 c).after 4 _), Window.fill_cut]
    dsimp only [dats]
  | k + 1, t, hk, d => by
    have hN : t.val < 64 := lt_of_lt_of_eq t.isLt (show cfg0.N = 64 from N_0)
    rw [before0_4_step m c t (by omega) d]
    unfold Dat.left
    rw [idleAt0_4 ⟨t.val - 1, prevLt t⟩ (by dsimp only; omega)]
    dsimp only
    rw [before0_4_BC c k ⟨t.val - 1, prevLt t⟩ (by dsimp only; omega) d]
    exact (outsAt0_fst m c ⟨t.val - 1, prevLt t⟩ (by dsimp only; omega)).symm

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_idle_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

end Cert.Kernel.Hand

end
-- ==== Proof.Kernel.Body.lean ====
/- The body's obligation at every grid point: by the point's position among the four key tiles the body is in one of
   three cases, each run once on arbitrary staging buffers; here each case meets the buffers the launch hands it. -/
import proofs.«166168_j66391604462138_2_alg».proof.Proof.Kernel.Outs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    leaves_live m c 0 t (liveAt0_0 t), leaves_live m c 1 t (liveAt0_1 t), leaves_live m c 2 t (liveAt0_2 t),
    leaves_live m c 3 t (liveAt0_3 t), leaves_live m c 5 t (liveAt0_5 t),
    after0_0, after0_1, after0_2, after0_3, after0_5]
  have hN : t.val < 64 := lt_of_lt_of_eq t.isLt (show cfg0.N = 64 from N_0)
  by_cases h0 : t.val % 4 = 0
  · rw [leaves_live m c 4 t (liveAt0_4_A t h0), after0_4, outsAt0_A m c t h0]
    unfold out0_A_4 out0_A_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ (c0_of t h0) (nc1_of0 t h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _)
  · have hk : t.val % 4 = (t.val % 4 - 1) + 1 := by omega
    simp only [before0_4_BC m c (t.val % 4 - 1) t hk, before0_5_BC m c t h0]
    by_cases h1 : t.val % 4 = 3
    · rw [leaves_idle_flush m c 4 t (idleAt0_4 t h0) (flushAt0_4 t h1), after0_4, outsAt0_C m c t h0 h1]
      unfold out0_C_5
      dsimp only
      iintro ⟨HΦ, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ (nc0_of t h0) (c1_of t h1) (iblk m c 1 t) _ _).2 Set.univ _)
      isplitl [H1]; · iexact H1
      isplitl [H4]; · iexact H4
      isplitl [H5]; · iexact H5
      iintro ⟨H1, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _)
    · rw [Dat.leavesExact_idle (dats m 0 c) 4 t (idleAt0_4 t h0) (noFlush0_4 t h1), outsAt0_B m c t h0 h1]
      simp only [before0_4_BC m c (t.val % 4 - 1) t hk]
      unfold out0_B_5
      dsimp only
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (nc0_of t h0) (nc1_of t h1) (iblk m c 1 t) _ _).2 Set.univ _)
      isplitl [H1]; · iexact H1
      isplitl [H4]; · iexact H4
      isplitl [H5]; · iexact H5
      iintro ⟨H1, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexists d4; iexact H4
      unfold owns; iexists _; isplitr
      swap; · iexact H5
      ipureintro; exact View.read_writes_of_cover _ _ _ _ _ (cover0_B_5 c _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Kernel.Frame.lean ====
/- The run of @main around the region and the frame claim. -/
import proofs.«166168_j66391604462138_2_alg».proof.Proof.Kernel.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
/-- Every weakly fair execution of @main terminates, and in every final state each array of the launch holds what the
    proof data computes and every other buffer what the lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, faults nowhere, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KernelIdeal.Kit.lean ====
/- The launch side of the kernel's frame: the arrays as the region finds them, the host lines around the region,
   each window's block at a grid point, the two conditions of the body in closed form over the grid, and where the
   output windows are idle. The grid is 4 x 4 x 4; its last axis walks the four key tiles of one (batch, query tile)
   pair, so a point's position modulo 4 is the key tile: the first tile initialises both outputs, the last adds the
   query norms, and both output blocks are written back after the last tile. -/
import proofs.«166168_j66391604462138_2_alg».proof.Proof.Gen.KernelIdeal.Launch
import proofs.«166168_j66391604462138_2_alg».proof.Proof.Gen.KernelIdeal.Skeleton
import proofs.«166168_j66391604462138_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: after the host lines that build the rotation matrix
    and transpose the target cloud. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it (the mean of the distances). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays end as launched: the source cloud and the translation are input arrays of the region (never
    written back), the target cloud and the rotation vector bypass it and no host line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).1 3).trans (((dats 0 c).arrAt_in 3 rfl _).trans ((hA c 3).trans (V_main_arg3 m c)))⟩) h

/-! ## The body's two conditions -/

/-- The first condition (the key tile is the first one), from the grid coordinates. -/
abbrev cond0_0 (i : grid0.Coords) : Prop := k0_cond1 i = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second condition (the key tile is the last one), from the grid coordinates. -/
abbrev cond0_1 (i : grid0.Coords) : Prop := (Scalar.cmpi .ne (Scalar.extui (Scalar.cmpi .eq (BitVec.ofNat 32 (i 2).val) 3#32)) 0#32) = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_5 : ∀ t : Fin cfg0.N, cfg0.idle 5 (grid0.coords t) = false := by decide +kernel
/-- The transformed-points block is stored only at the first key tile: there the window is live, -/
theorem liveAt0_4_A : ∀ t : Fin cfg0.N, t.val % 4 = 0 → cfg0.idle 4 (grid0.coords t) = false := by decide +kernel
/-- and at the other key tiles it is idle. -/
theorem idleAt0_4 : ∀ t : Fin cfg0.N, ¬t.val % 4 = 0 → cfg0.idle 4 (grid0.coords t) = true := by decide +kernel
/-- It is written back after the last key tile only. -/
theorem noFlush0_4 : ∀ t : Fin cfg0.N, ¬t.val % 4 = 3 → (cfg0.win 4).flush t = false := by decide +kernel
theorem flushAt0_4 : ∀ t : Fin cfg0.N, t.val % 4 = 3 → (cfg0.win 4).flush t = true := by decide +kernel
theorem noFlush0_5 : ∀ t : Fin cfg0.N, ¬t.val % 4 = 3 → (cfg0.win 5).flush t = false := by decide +kernel

/-! ## The staging memrefs -/

/-- One staging buffer of each output window, through which its contents are stated. -/
abbrev VO0_4 : View sig .tc .vmem S1x1024x3 .f32 := (Memref.whole cc0_stg4_0 : Memref sig .tc .vmem S1x1024x3 .f32).view
abbrev VO0_5 : View sig .tc .vmem S1x1024x1 .f32 := (Memref.whole cc0_stg5_0 : Memref sig .tc .vmem S1x1024x1 .f32).view
abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1 .f32 := win0_5.stage (cfg0.slots t 5)
abbrev hs0_5 (t : Fin cfg0.N) : (ms0_5 t).IsWhole := hstage0_5 ((cfg0.slots t 5).cast nbuf0_5)

end Cert.KernelIdeal.Hand

end
-- ==== Proof.KernelIdeal.RunA.lean ====
/- The body at a first key tile: it computes the transformed block (the source block times the transposed rotation,
   plus the translation), stores it, resets the running minimum to +inf, and then folds the first tile in. -/
import proofs.«166168_j66391604462138_2_alg».proof.Proof.KernelIdeal.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a first key tile, on whole staging memrefs holding the four input blocks, the two output buffers at anything:
    the body runs to the end and leaves the inputs as they were and each output buffer with the body's stores
    written over it. -/
noncomputable def kernelRun0_A (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i)
    (x0 : Vec F S1x1024x3 .f32) (x1 : Vec F S1x3x1024 .f32) (x2 : Vec F S3x3 .f32) (x3 : Vec F S3 .f32) :
    Σ' (L4 : List (View.Piece (Elt F) S1x1024x3 .f32)), { L5 : List (View.Piece (Elt F) S1x1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)) -∗ K ⟨⟩))
          ⊢ wp frame (wpE (defs₀ (F := F)) Variants.none c none) E (cc0__nn_kernel i arg3 harg3 arg4 harg4 arg5 harg5 arg6 harg6 arg7 harg7 arg8 harg8) K } := by
  refine ⟨?_, ?_, fun E K => ?run⟩
  case run =>
    simp only [cc0__nn_kernel_eq_skeleton]; unfold cc0__nn_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact H5

end Cert.KernelIdeal.Hand

end
-- ==== Proof.KernelIdeal.RunB.lean ====
/- The body at a middle key tile (neither the first nor the last): it reads the transformed block, folds the tile's minimum into the running minimum, and stores nothing else. -/
import proofs.«166168_j66391604462138_2_alg».proof.Proof.KernelIdeal.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding the target block, the transformed block `xo4` the first tile left and the running
    minimum `xo5` the tile before left: the body runs to the end, leaves the target block and the transformed block as
    they were, and the running-minimum buffer with the body's stores written over it. The source
    block, the rotation and the translation are not touched at such a point. -/
noncomputable def kernelRun0_B (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : ¬cond0_1 i)
    (x1 : Vec F S1x3x1024 .f32) (xo4 : Vec F S1x1024x3 .f32) (xo5 : Vec F S1x1024x1 .f32) :
    { L5 : List (View.Piece (Elt F) S1x1024x1 .f32) //
      ∀ (E : Set ℕ) (K : PUnit → sProp 𝕄),
        iprop(owns (c : Thread nD τ) arg4 fullShare x1 ∗ owns (c : Thread nD τ) arg7 fullShare xo4 ∗ owns (c : Thread nD τ) arg8 fullShare xo5
            ∗ (iprop(owns (c : Thread nD τ) arg4 fullShare x1 ∗ owns (c : Thread nD τ) arg7 fullShare xo4 ∗ (∃ f, arg8.view.loc (c : Thread nD τ) ↦[arg8.view.set]{fullShare} arg8.view.writes (Elt F) f L5)) -∗ K ⟨⟩))
          ⊢ wp frame (wpE (defs₀ (F := F)) Variants.none c none) E (cc0__nn_kernel i arg3 harg3 arg4 harg4 arg5 harg5 arg6 harg6 arg7 harg7 arg8 harg8) K } := by
  refine ⟨?_, fun E K => ?run⟩
  case run =>
    simp only [cc0__nn_kernel_eq_skeleton]; unfold cc0__nn_kernel_skel
    unfold owns
    iintro ⟨⟨%f1, %hf1, H1⟩, ⟨%f4, %hf4, H4⟩, ⟨%f5, %hf5, H5⟩, Hk⟩
    obtain rfl := harg4.eq_unread hf1; obtain rfl := harg7.eq_unread hf4; obtain rfl := harg8.eq_unread hf5
    sl_exec (disch := first | exact hc0 | exact hc1)
    sl_step
    iapply Hk
    isplitl [H1]
    · iexists _; isplitr; · ipureintro; exact harg4.read_unread _
      iexact H1
    isplitl [H4]
    · iexists _; isplitr; · ipureintro; exact harg7.read_unread _
      iexact H4
    iexists _; iexact H5

end Cert.KernelIdeal.Hand

end
-- ==== Proof.KernelIdeal.RunC.lean ====
/- The body at the last key tile: it folds the tile's minimum into the running minimum and then adds each query point's squared norm. -/
import proofs.«166168_j66391604462138_2_alg».proof.Proof.KernelIdeal.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding the target block, the transformed block `xo4` the first tile left and the running
    minimum `xo5` the tile before left: the body runs to the end, leaves the target block and the transformed block as
    they were, and the running-minimum buffer with the body's stores written over it. The source
    block, the rotation and the translation are not touched at such a point. -/
noncomputable def kernelRun0_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : cond0_1 i)
    (x1 : Vec F S1x3x1024 .f32) (xo4 : Vec F S1x1024x3 .f32) (xo5 : Vec F S1x1024x1 .f32) :
    { L5 : List (View.Piece (Elt F) S1x1024x1 .f32) //
      ∀ (E : Set ℕ) (K : PUnit → sProp 𝕄),
        iprop(owns (c : Thread nD τ) arg4 fullShare x1 ∗ owns (c : Thread nD τ) arg7 fullShare xo4 ∗ owns (c : Thread nD τ) arg8 fullShare xo5
            ∗ (iprop(owns (c : Thread nD τ) arg4 fullShare x1 ∗ owns (c : Thread nD τ) arg7 fullShare xo4 ∗ (∃ f, arg8.view.loc (c : Thread nD τ) ↦[arg8.view.set]{fullShare} arg8.view.writes (Elt F) f L5)) -∗ K ⟨⟩))
          ⊢ wp frame (wpE (defs₀ (F := F)) Variants.none c none) E (cc0__nn_kernel i arg3 harg3 arg4 harg4 arg5 harg5 arg6 harg6 arg7 harg7 arg8 harg8) K } := by
  refine ⟨?_, fun E K => ?run⟩
  case run =>
    simp only [cc0__nn_kernel_eq_skeleton]; unfold cc0__nn_kernel_skel
    unfold owns
    iintro ⟨⟨%f1, %hf1, H1⟩, ⟨%f4, %hf4, H4⟩, ⟨%f5, %hf5, H5⟩, Hk⟩
    obtain rfl := harg4.eq_unread hf1; obtain rfl := harg7.eq_unread hf4; obtain rfl := harg8.eq_unread hf5
    sl_exec (disch := first | exact hc0 | exact hc1)
    sl_step
    iapply Hk
    isplitl [H1]
    · iexists _; isplitr; · ipureintro; exact harg4.read_unread _
      iexact H1
    isplitl [H4]
    · iexists _; isplitr; · ipureintro; exact harg7.read_unread _
      iexact H4
    iexists _; iexact H5

end Cert.KernelIdeal.Hand

end
-- ==== Proof.KernelIdeal.Outs.lean ====
/- What the two output buffers hold after each grid point (by recursion on the point: the transformed block is made
   at the first key tile and kept, the running minimum is reset there and folded at every tile, the query norms are
   added at the last), the proof data of the launch, and what each staging buffer holds when the body starts. -/
import proofs.«166168_j66391604462138_2_alg».proof.Proof.KernelIdeal.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffers -/

theorem cover0_A_4 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i) (x0 : Vec F S1x1024x3 .f32) (x1 : Vec F S1x3x1024 .f32) (x2 : Vec F S3x3 .f32) (x3 : Vec F S3 .f32) (y : S1x1024x3.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S1x1024x3.size (by sl_kernel_rfl) y

/-- The transformed block a first tile leaves. -/
def out0_A_4 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i) (x0 : Vec F S1x1024x3 .f32) (x1 : Vec F S1x3x1024 .f32) (x2 : Vec F S3x3 .f32) (x3 : Vec F S3 .f32) : Vec F S1x1024x3 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

theorem cover0_A_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i) (x0 : Vec F S1x1024x3 .f32) (x1 : Vec F S1x3x1024 .f32) (x2 : Vec F S3x3 .f32) (x3 : Vec F S3 .f32) (y : S1x1024x1.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1x1024x1.size (by sl_kernel_rfl) y

/-- The running minimum a first tile leaves. -/
def out0_A_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i) (x0 : Vec F S1x1024x3 .f32) (x1 : Vec F S1x3x1024 .f32) (x2 : Vec F S3x3 .f32) (x3 : Vec F S3 .f32) : Vec F S1x1024x1 .f32 :=
  VO0_5.read (Elt F) (VO0_5.writes (Elt F) VO0_5.junk (kernelRun0_A c i arg3 harg3 arg4 harg4 arg5 harg5 arg6 harg6 arg7 harg7 arg8 harg8 hc0 hc1 x0 x1 x2 x3).2.1)

theorem cover0_B_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : ¬cond0_1 i) (x1 : Vec F S1x3x1024 .f32) (xo4 : Vec F S1x1024x3 .f32) (xo5 : Vec F S1x1024x1 .f32) (y : S1x1024x1.Idx) :
    ∃ pc ∈ (kernelRun0_B c i arg3 harg3 arg4 harg4 arg5 harg5 arg6 harg6 arg7 harg7 arg8 harg8 hc0 hc1 x1 xo4 xo5).1, y ∈ pc.1.set :=
  View.cover_of_tiledL (kernelRun0_B c i arg3 harg3 arg4 harg4 arg5 harg5 arg6 harg6 arg7 harg7 arg8 harg8 hc0 hc1 x1 xo4 xo5).1 S1x1024x1.size (by sl_kernel_rfl) y

/-- The running minimum a middle tile leaves. -/
def out0_B_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : ¬cond0_1 i) (x1 : Vec F S1x3x1024 .f32) (xo4 : Vec F S1x1024x3 .f32) (xo5 : Vec F S1x1024x1 .f32) : Vec F S1x1024x1 .f32 :=
  VO0_5.read (Elt F) (VO0_5.writes (Elt F) VO0_5.junk (kernelRun0_B c i arg3 harg3 arg4 harg4 arg5 harg5 arg6 harg6 arg7 harg7 arg8 harg8 hc0 hc1 x1 xo4 xo5).1)

theorem cover0_C_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : cond0_1 i) (x1 : Vec F S1x3x1024 .f32) (xo4 : Vec F S1x1024x3 .f32) (xo5 : Vec F S1x1024x1 .f32) (y : S1x1024x1.Idx) :
    ∃ pc ∈ (kernelRun0_C c i arg3 harg3 arg4 harg4 arg5 harg5 arg6 harg6 arg7 harg7 arg8 harg8 hc0 hc1 x1 xo4 xo5).1, y ∈ pc.1.set :=
  View.cover_of_tiledL (kernelRun0_C c i arg3 harg3 arg4 harg4 arg5 harg5 arg6 harg6 arg7 harg7 arg8 harg8 hc0 hc1 x1 xo4 xo5).1 S1x1024x1.size (by sl_kernel_rfl) y

/-- What the last tile leaves: the minimum over all keys plus the query norms. -/
def out0_C_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : cond0_1 i) (x1 : Vec F S1x3x1024 .f32) (xo4 : Vec F S1x1024x3 .f32) (xo5 : Vec F S1x1024x1 .f32) : Vec F S1x1024x1 .f32 :=
  VO0_5.read (Elt F) (VO0_5.writes (Elt F) VO0_5.junk (kernelRun0_C c i arg3 harg3 arg4 harg4 arg5 harg5 arg6 harg6 arg7 harg7 arg8 harg8 hc0 hc1 x1 xo4 xo5).1)

/-! ## The conditions from a point's position modulo 4 -/

theorem c0_of (t : Fin cfg0.N) (h : t.val % 4 = 0) : cond0_0 (grid0.coords t) := (hcond0_0 t).mpr h
theorem nc0_of (t : Fin cfg0.N) (h : ¬t.val % 4 = 0) : ¬cond0_0 (grid0.coords t) := fun h' => h ((hcond0_0 t).mp h')
theorem c1_of (t : Fin cfg0.N) (h : t.val % 4 = 3) : cond0_1 (grid0.coords t) := (hcond0_1 t).mpr h
theorem nc1_of (t : Fin cfg0.N) (h : ¬t.val % 4 = 3) : ¬cond0_1 (grid0.coords t) := fun h' => h ((hcond0_1 t).mp h')
theorem nc1_of0 (t : Fin cfg0.N) (h : t.val % 4 = 0) : ¬cond0_1 (grid0.coords t) := nc1_of t (by omega)

/-! ## What the outputs hold after each point -/

/-- The two output buffers after the body at position `n` (transformed block, running minimum): a first tile computes
    both from the point's input blocks; a later tile keeps the transformed block and folds its target block into the
    running minimum the tile before left. -/
def outsAt0 (c : Dev nD) : (n : ℕ) → n < cfg0.N → Vec F S1x1024x3 .f32 × Vec F S1x1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (c0_of ⟨0, hn⟩ (Nat.zero_mod _)) (nc1_of0 ⟨0, hn⟩ (Nat.zero_mod _)) (iblk m c 0 ⟨0, hn⟩) (iblk m c 1 ⟨0, hn⟩) (iblk m c 2 ⟨0, hn⟩) (iblk m c 3 ⟨0, hn⟩),
              out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (c0_of ⟨0, hn⟩ (Nat.zero_mod _)) (nc1_of0 ⟨0, hn⟩ (Nat.zero_mod _)) (iblk m c 0 ⟨0, hn⟩) (iblk m c 1 ⟨0, hn⟩) (iblk m c 2 ⟨0, hn⟩) (iblk m c 3 ⟨0, hn⟩))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (c0_of ⟨n + 1, hn⟩ h0) (nc1_of0 ⟨n + 1, hn⟩ h0) (iblk m c 0 ⟨n + 1, hn⟩) (iblk m c 1 ⟨n + 1, hn⟩) (iblk m c 2 ⟨n + 1, hn⟩) (iblk m c 3 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (c0_of ⟨n + 1, hn⟩ h0) (nc1_of0 ⟨n + 1, hn⟩ h0) (iblk m c 0 ⟨n + 1, hn⟩) (iblk m c 1 ⟨n + 1, hn⟩) (iblk m c 2 ⟨n + 1, hn⟩) (iblk m c 3 ⟨n + 1, hn⟩))
    else
      if h1 : (n + 1) % 4 = 3 then
        ((outsAt0 c n (Nat.lt_of_succ_lt hn)).1,
         out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (nc0_of ⟨n + 1, hn⟩ h0) (c1_of ⟨n + 1, hn⟩ h1) (iblk m c 1 ⟨n + 1, hn⟩) (outsAt0 c n (Nat.lt_of_succ_lt hn)).1 (outsAt0 c n (Nat.lt_of_succ_lt hn)).2)
      else
        ((outsAt0 c n (Nat.lt_of_succ_lt hn)).1,
         out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (nc0_of ⟨n + 1, hn⟩ h0) (nc1_of ⟨n + 1, hn⟩ h1) (iblk m c 1 ⟨n + 1, hn⟩) (outsAt0 c n (Nat.lt_of_succ_lt hn)).1 (outsAt0 c n (Nat.lt_of_succ_lt hn)).2)

/-- The point before `t`. -/
abbrev prevLt (t : Fin cfg0.N) : t.val - 1 < cfg0.N := Nat.lt_of_le_of_lt (Nat.sub_le _ _) t.isLt

theorem outsAt0_A (c : Dev nD) (t : Fin cfg0.N) (h0 : t.val % 4 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (c0_of t h0) (nc1_of0 t h0) (iblk m c 0 t) (iblk m c 1 t) (iblk m c 2 t) (iblk m c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (c0_of t h0) (nc1_of0 t h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = ((outsAt0 m c (t.val - 1) (prevLt t)).1,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (nc0_of t h0) (nc1_of t h1) (iblk m c 1 t) (outsAt0 m c (t.val - 1) (prevLt t)).1 (outsAt0 m c (t.val - 1) (prevLt t)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = ((outsAt0 m c (t.val - 1) (prevLt t)).1,
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (nc0_of t h0) (c1_of t h1) (iblk m c 1 t) (outsAt0 m c (t.val - 1) (prevLt t)).1 (outsAt0 m c (t.val - 1) (prevLt t)).2) := by
  obtain ⟨n, hn⟩ := t
  cases n with
  | zero => exact (by exfalso; (try dsimp only at h0); exact absurd (Nat.zero_mod _) h0)
  | succ n => exact (dif_neg h0).trans ((dif_pos h1).trans rfl)

/-- After a first tile the transformed block is kept. -/
theorem outsAt0_fst (c : Dev nD) (t : Fin cfg0.N) (h0 : ¬t.val % 4 = 0) :
    (outsAt0 m c t.val t.isLt).1 = (outsAt0 m c (t.val - 1) (prevLt t)).1 := by
  by_cases h1 : t.val % 4 = 3
  · rw [outsAt0_C m c t h0 h1]
  · rw [outsAt0_B m c t h0 h1]

/-! ## The proof data of the launch -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a later tile the running-minimum buffer holds what the tile before left: it is live at every point, uncut,
    and written back only after a last tile. -/
theorem before0_5_BC (c : Dev nD) (t : Fin cfg0.N) (h0 : ¬t.val % 4 = 0) (d) :
    (dats m 0 c).before 5 t d = (outsAt0 m c (t.val - 1) (prevLt t)).2 := by
  have hN : t.val < 64 := lt_of_lt_of_eq t.isLt (show cfg0.N = 64 from N_0)
  rw [Dat.before_out_kept _ 5 rfl t (by omega) (noFlush0_5 _ (by dsimp only; omega))
    (fun _ => rfl) (fun _ _ => rfl)]
  dsimp only [dats]

/-- One step back for the transformed-points buffer at a later tile: it holds what the tile before left in it. -/
theorem before0_4_step (c : Dev nD) (t : Fin cfg0.N) (h0 : ¬t.val % 4 = 0) (d) :
    (dats m 0 c).before 4 t d = (dats m 0 c).left 4 ⟨t.val - 1, prevLt t⟩ d := by
  have hN : t.val < 64 := lt_of_lt_of_eq t.isLt (show cfg0.N = 64 from N_0)
  rw [Dat.before_of_pos _ 4 t (by omega) ((cfg0.win 4).fetch_out rfl t), noFlush0_4 _ (by dsimp only; omega), if_neg Bool.false_ne_true]

/-- At a later tile the transformed-points buffer holds the block the first tile of the run left: the tile after the
    first finds what the body stored, the later ones what they found before (the window is idle there). -/
theorem before0_4_BC (c : Dev nD) : ∀ (k : ℕ) (t : Fin cfg0.N), t.val % 4 = k + 1 → ∀ d,
    (dats m 0 c).before 4 t d = (outsAt0 m c (t.val - 1) (prevLt t)).1
  | 0, t, hk, d => by
    have hN : t.val < 64 := lt_of_lt_of_eq t.isLt (show cfg0.N = 64 from N_0)
    rw [before0_4_step m c t (by omega) d]
    unfold Dat.left
    rw [liveAt0_4_A ⟨t.val - 1, prevLt t⟩ (by dsimp only; omega)]
    dsimp only
    unfold Dat.kept
    rw [Pipeline.fill_of_clip_none 4 _ (fun _ => rfl) d ((dats m 0 c).after 4 _), Window.fill_cut]
    dsimp only [dats]
  | k + 1, t, hk, d => by
    have hN : t.val < 64 := lt_of_lt_of_eq t.isLt (show cfg0.N = 64 from N_0)
    rw [before0_4_step m c t (by omega) d]
    unfold Dat.left
    rw [idleAt0_4 ⟨t.val - 1, prevLt t⟩ (by dsimp only; omega)]
    dsimp only
    rw [before0_4_BC c k ⟨t.val - 1, prevLt t⟩ (by dsimp only; omega) d]
    exact (outsAt0_fst m c ⟨t.val - 1, prevLt t⟩ (by dsimp only; omega)).symm

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_idle_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

end Cert.KernelIdeal.Hand

end
-- ==== Proof.KernelIdeal.Body.lean ====
/- The body's obligation at every grid point: by the point's position among the four key tiles the body is in one of
   three cases, each run once on arbitrary staging buffers; here each case meets the buffers the launch hands it. -/
import proofs.«166168_j66391604462138_2_alg».proof.Proof.KernelIdeal.Outs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    leaves_live m c 0 t (liveAt0_0 t), leaves_live m c 1 t (liveAt0_1 t), leaves_live m c 2 t (liveAt0_2 t),
    leaves_live m c 3 t (liveAt0_3 t), leaves_live m c 5 t (liveAt0_5 t),
    after0_0, after0_1, after0_2, after0_3, after0_5]
  have hN : t.val < 64 := lt_of_lt_of_eq t.isLt (show cfg0.N = 64 from N_0)
  by_cases h0 : t.val % 4 = 0
  · rw [leaves_live m c 4 t (liveAt0_4_A t h0), after0_4, outsAt0_A m c t h0]
    unfold out0_A_4 out0_A_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ (c0_of t h0) (nc1_of0 t h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _)
  · have hk : t.val % 4 = (t.val % 4 - 1) + 1 := by omega
    simp only [before0_4_BC m c (t.val % 4 - 1) t hk, before0_5_BC m c t h0]
    by_cases h1 : t.val % 4 = 3
    · rw [leaves_idle_flush m c 4 t (idleAt0_4 t h0) (flushAt0_4 t h1), after0_4, outsAt0_C m c t h0 h1]
      unfold out0_C_5
      dsimp only
      iintro ⟨HΦ, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ (nc0_of t h0) (c1_of t h1) (iblk m c 1 t) _ _).2 Set.univ _)
      isplitl [H1]; · iexact H1
      isplitl [H4]; · iexact H4
      isplitl [H5]; · iexact H5
      iintro ⟨H1, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _)
    · rw [Dat.leavesExact_idle (dats m 0 c) 4 t (idleAt0_4 t h0) (noFlush0_4 t h1), outsAt0_B m c t h0 h1]
      simp only [before0_4_BC m c (t.val % 4 - 1) t hk]
      unfold out0_B_5
      dsimp only
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (nc0_of t h0) (nc1_of t h1) (iblk m c 1 t) _ _).2 Set.univ _)
      isplitl [H1]; · iexact H1
      isplitl [H4]; · iexact H4
      isplitl [H5]; · iexact H5
      iintro ⟨H1, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexists d4; iexact H4
      unfold owns; iexists _; isplitr
      swap; · iexact H5
      ipureintro; exact View.read_writes_of_cover _ _ _ _ _ (cover0_B_5 c _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdeal.Frame.lean ====
/- The run of @main around the region and the frame claim. -/
import proofs.«166168_j66391604462138_2_alg».proof.Proof.KernelIdeal.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
/-- Every weakly fair execution of @main terminates, and in every final state each array of the launch holds what the
    proof data computes and every other buffer what the lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, faults nowhere, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KernelIdeal.Pieces.lean ====
/- What each case of the body leaves in the two output buffers, as the body's arithmetic of the blocks it found there:
   a first key tile leaves the transformed block and the first tile folded into a freshly reset minimum, a middle tile
   folds its target block into the running minimum, the last tile also adds the query norms. Then the run of four key
   tiles of one query block: the transformed block of its first tile, and the four folds in order under the norms. -/
import proofs.«166168_j66391604462138_2_alg».proof.Proof.KernelIdeal.Outs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The zero offsets, however spelt -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## What each case leaves, as the body's arithmetic -/

/-- A first tile leaves the transformed block: the affine map of the source block. -/
theorem piece_A_4 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i) (x0 : Vec F S1x1024x3 .f32) (x1 : Vec F S1x3x1024 .f32) (x2 : Vec F S3x3 .f32) (x3 : Vec F S3 .f32) :
    out0_A_4 c i arg3 harg3 arg4 harg4 arg5 harg5 arg6 harg6 arg7 harg7 arg8 harg8 hc0 hc1 x0 x1 x2 x3 = k0_pay1 x0 x2 x3 := by
  unfold out0_A_4
  rw [View.read_writes_eq_canon _ _ _ (cover0_A_4 c i arg3 harg3 arg4 harg4 arg5 harg5 arg6 harg6 arg7 harg7 arg8 harg8 hc0 hc1 x0 x1 x2 x3)]
  unfold kernelRun0_A
  dsimp only
  sl_unfold_words
  rw [View.canon_unit_zero (S := S1x1024x3) hz3]
  simp only [View.readAt_eq_ld, harg3.read_unread, harg5.read_unread, harg6.read_unread,
    View.ld_unit_zero (S := S1x1024x3) hz3, View.ld_unit_zero (S := S3x3) hz2, View.ld_unit_zero (S := S3) hz1]

/-- A first tile leaves, as the running minimum, its target block folded into the freshly reset minimum, against the
    transformed block it has just stored. -/
theorem piece_A_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : cond0_0 i) (hc1 : ¬cond0_1 i) (x0 : Vec F S1x1024x3 .f32) (x1 : Vec F S1x3x1024 .f32) (x2 : Vec F S3x3 .f32) (x3 : Vec F S3 .f32) :
    out0_A_5 c i arg3 harg3 arg4 harg4 arg5 harg5 arg6 harg6 arg7 harg7 arg8 harg8 hc0 hc1 x0 x1 x2 x3 = k0_pay4 (k0_pay1 x0 x2 x3) x1 (k0_pay2 (F := F)) := by
  unfold out0_A_5
  rw [View.read_writes_eq_canon _ _ _ (cover0_A_5 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1x1024x1) hz3, View.readCov_unit_zero (S := S1x1024x3) _ hz3,
    View.readCov_unit_zero (S := S1x1024x1) _ hz3]
  simp only [View.readAt_eq_ld, harg3.read_unread, harg4.read_unread, harg5.read_unread, harg6.read_unread,
    View.ld_unit_zero (S := S1x1024x3) hz3, View.ld_unit_zero (S := S1x3x1024) hz3, View.ld_unit_zero (S := S3x3) hz2,
    View.ld_unit_zero (S := S3) hz1]

/-- A middle tile folds its target block into the running minimum it found, against the transformed block it found. -/
theorem piece_B_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : ¬cond0_1 i) (x1 : Vec F S1x3x1024 .f32) (xo4 : Vec F S1x1024x3 .f32) (xo5 : Vec F S1x1024x1 .f32) :
    out0_B_5 c i arg3 harg3 arg4 harg4 arg5 harg5 arg6 harg6 arg7 harg7 arg8 harg8 hc0 hc1 x1 xo4 xo5 = k0_pay4 xo4 x1 xo5 := by
  unfold out0_B_5
  rw [View.read_writes_eq_canon _ _ _ (cover0_B_5 c i arg3 harg3 arg4 harg4 arg5 harg5 arg6 harg6 arg7 harg7 arg8 harg8 hc0 hc1 x1 xo4 xo5)]
  unfold kernelRun0_B
  dsimp only
  sl_unfold_words
  rw [View.canon_unit_zero (S := S1x1024x1) hz3]
  simp only [View.readAt_eq_ld, harg4.read_unread, harg7.read_unread, harg8.read_unread,
    View.ld_unit_zero (S := S1x1024x3) hz3, View.ld_unit_zero (S := S1x3x1024) hz3, View.ld_unit_zero (S := S1x1024x1) hz3]

/-- The last tile folds its target block in and then adds the norms of the transformed block. -/
theorem piece_C_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S3x3 .f32) (harg5 : arg5.IsWhole) (arg6 : Memref sig .tc .vmem S3 .f32) (harg6 : arg6.IsWhole) (arg7 : Memref sig .tc .vmem S1x1024x3 .f32) (harg7 : arg7.IsWhole) (arg8 : Memref sig .tc .vmem S1x1024x1 .f32) (harg8 : arg8.IsWhole) (hc0 : ¬cond0_0 i) (hc1 : cond0_1 i) (x1 : Vec F S1x3x1024 .f32) (xo4 : Vec F S1x1024x3 .f32) (xo5 : Vec F S1x1024x1 .f32) :
    out0_C_5 c i arg3 harg3 arg4 harg4 arg5 harg5 arg6 harg6 arg7 harg7 arg8 harg8 hc0 hc1 x1 xo4 xo5 = k0_pay5 xo4 (k0_pay4 xo4 x1 xo5) := by
  unfold out0_C_5
  rw [View.read_writes_eq_canon _ _ _ (cover0_C_5 c i arg3 harg3 arg4 harg4 arg5 harg5 arg6 harg6 arg7 harg7 arg8 harg8 hc0 hc1 x1 xo4 xo5)]
  unfold kernelRun0_C
  dsimp only
  sl_unfold_words
  rw [View.canon_cons_unit_zero (S := S1x1024x1) hz3, View.readCov_unit_zero (S := S1x1024x1) _ hz3]
  simp only [View.readAt_eq_ld, harg4.read_unread, harg7.read_unread, harg8.read_unread,
    View.ld_unit_zero (S := S1x1024x3) hz3, View.ld_unit_zero (S := S1x3x1024) hz3, View.ld_unit_zero (S := S1x1024x1) hz3]

/-! ## A run of four key tiles -/

/-- After a first tile: the transformed block, and the first target block folded into the reset minimum. -/
theorem outsAt0_first (c : Dev nD) (n : ℕ) (h : n < cfg0.N) (h0 : n % 4 = 0) :
    outsAt0 m c n h = (k0_pay1 (iblk m c 0 ⟨n, h⟩) (iblk m c 2 ⟨n, h⟩) (iblk m c 3 ⟨n, h⟩),
      k0_pay4 (k0_pay1 (iblk m c 0 ⟨n, h⟩) (iblk m c 2 ⟨n, h⟩) (iblk m c 3 ⟨n, h⟩)) (iblk m c 1 ⟨n, h⟩) (k0_pay2 (F := F))) :=
  (outsAt0_A m c ⟨n, h⟩ h0).trans (congrArg₂ Prod.mk
    (piece_A_4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (c0_of ⟨n, h⟩ h0) (nc1_of0 ⟨n, h⟩ h0) (iblk m c 0 ⟨n, h⟩) (iblk m c 1 ⟨n, h⟩) (iblk m c 2 ⟨n, h⟩) (iblk m c 3 ⟨n, h⟩))
    (piece_A_5 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (c0_of ⟨n, h⟩ h0) (nc1_of0 ⟨n, h⟩ h0) (iblk m c 0 ⟨n, h⟩) (iblk m c 1 ⟨n, h⟩) (iblk m c 2 ⟨n, h⟩) (iblk m c 3 ⟨n, h⟩)))

/-- After a middle tile: the transformed block kept, the tile's target block folded into the running minimum. -/
theorem outsAt0_mid (c : Dev nD) (n : ℕ) (h : n + 1 < cfg0.N) (h' : n < cfg0.N) (h0 : ¬(n + 1) % 4 = 0) (h1 : ¬(n + 1) % 4 = 3)
    (P : Vec F S1x1024x3 .f32) (M : Vec F S1x1024x1 .f32) (hp : outsAt0 m c n h' = (P, M)) :
    outsAt0 m c (n + 1) h = (P, k0_pay4 P (iblk m c 1 ⟨n + 1, h⟩) M) := by
  refine (outsAt0_B m c ⟨n + 1, h⟩ h0 h1).trans ?_
  have hp' : outsAt0 m c ((⟨n + 1, h⟩ : Fin cfg0.N).val - 1) (prevLt ⟨n + 1, h⟩) = (P, M) := hp
  rw [hp']
  exact congrArg (Prod.mk P) (piece_B_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (nc0_of ⟨n + 1, h⟩ h0) (nc1_of ⟨n + 1, h⟩ h1) (iblk m c 1 ⟨n + 1, h⟩) P M)

/-- After the last tile: the transformed block kept, the tile's target block folded in and the norms added. -/
theorem outsAt0_last (c : Dev nD) (n : ℕ) (h : n + 1 < cfg0.N) (h' : n < cfg0.N) (h0 : ¬(n + 1) % 4 = 0) (h1 : (n + 1) % 4 = 3)
    (P : Vec F S1x1024x3 .f32) (M : Vec F S1x1024x1 .f32) (hp : outsAt0 m c n h' = (P, M)) :
    outsAt0 m c (n + 1) h = (P, k0_pay5 P (k0_pay4 P (iblk m c 1 ⟨n + 1, h⟩) M)) := by
  refine (outsAt0_C m c ⟨n + 1, h⟩ h0 h1).trans ?_
  have hp' : outsAt0 m c ((⟨n + 1, h⟩ : Fin cfg0.N).val - 1) (prevLt ⟨n + 1, h⟩) = (P, M) := hp
  rw [hp']
  exact congrArg (Prod.mk P) (piece_C_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (nc0_of ⟨n + 1, h⟩ h0) (c1_of ⟨n + 1, h⟩ h1) (iblk m c 1 ⟨n + 1, h⟩) P M)

/-- THE RUN OF FOUR KEY TILES of one query block, starting at a position `n` divisible by four: the outputs after its
    last tile are the transformed block of its first tile and, under the norms, the four target blocks folded in order
    into the reset minimum. -/
theorem outsAt0_run4 (c : Dev nD) (n : ℕ) (hn : n % 4 = 0) (h : n + 3 < cfg0.N) :
    outsAt0 m c (n + 3) h
      = (k0_pay1 (iblk m c 0 ⟨n, by omega⟩) (iblk m c 2 ⟨n, by omega⟩) (iblk m c 3 ⟨n, by omega⟩),
         k0_pay5 (k0_pay1 (iblk m c 0 ⟨n, by omega⟩) (iblk m c 2 ⟨n, by omega⟩) (iblk m c 3 ⟨n, by omega⟩))
           (k0_pay4 (k0_pay1 (iblk m c 0 ⟨n, by omega⟩) (iblk m c 2 ⟨n, by omega⟩) (iblk m c 3 ⟨n, by omega⟩)) (iblk m c 1 ⟨n + 3, h⟩)
             (k0_pay4 (k0_pay1 (iblk m c 0 ⟨n, by omega⟩) (iblk m c 2 ⟨n, by omega⟩) (iblk m c 3 ⟨n, by omega⟩)) (iblk m c 1 ⟨n + 2, by omega⟩)
               (k0_pay4 (k0_pay1 (iblk m c 0 ⟨n, by omega⟩) (iblk m c 2 ⟨n, by omega⟩) (iblk m c 3 ⟨n, by omega⟩)) (iblk m c 1 ⟨n + 1, by omega⟩)
                 (k0_pay4 (k0_pay1 (iblk m c 0 ⟨n, by omega⟩) (iblk m c 2 ⟨n, by omega⟩) (iblk m c 3 ⟨n, by omega⟩)) (iblk m c 1 ⟨n, by omega⟩)
                   (k0_pay2 (F := F))))))) := by
  have h0 : n < cfg0.N := by omega
  have h1 : n + 1 < cfg0.N := by omega
  have h2 : n + 2 < cfg0.N := by omega
  have e0 := outsAt0_first m c n h0 hn
  have e1 := outsAt0_mid m c n h1 h0 (by omega) (by omega) _ _ e0
  have e2 := outsAt0_mid m c (n + 1) h2 h1 (by omega) (by omega) _ _ e1
  exact outsAt0_last m c (n + 2) h h2 (by omega) (by omega) _ _ e2

end Cert.KernelIdeal.Hand

end
-- ==== Proof.RefLegs.lean ====
/- The reference's generated run and read-at-an-index lemmas, gathered for the modules that use them. -/
import proofs.«166168_j66391604462138_2_alg».proof.Proof.Gen.ReferenceIdeal.Read
-- ==== Proof.LibRealEntries.lean ====
/-
  Real entries inside the extended reals: the predicate "is a coerced real" is closed under the sum,
  difference, product and negation of the extended reals, under finite sums, under sine and cosine,
  under the square root of a non-negative real and under the quotient by a non-zero real; a
  concatenation or a re-indexing of arrays with real entries has real entries.
-/
import Idealize.ShloMosaic.PureOps.Ideal
import Idealize.ShloMosaic.PureOps.Ideal.Laws

noncomputable section

namespace Cert.RealEntries

open Idealize.ShloMosaic

/-- An extended real that is a real number. -/
def IsReal (x : EReal) : Prop := ∃ r : ℝ, x = (r : EReal)

/-- An extended real that is a positive real number. -/
def IsPos (x : EReal) : Prop := ∃ r : ℝ, 0 < r ∧ x = (r : EReal)

theorem IsPos.isReal {x : EReal} (h : IsPos x) : IsReal x := by
  obtain ⟨r, _, e⟩ := h
  exact ⟨r, e⟩

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sum {ι : Type*} (s : Finset ι) (f : ι → EReal) (h : ∀ i ∈ s, IsReal (f i)) : IsReal (∑ i ∈ s, f i) :=
  Finset.sum_induction f IsReal (fun _ _ => IsReal.add) isReal_zero h

theorem IsReal.sin {x : EReal} (hx : IsReal x) : IsReal (Ideal.sin x) := by
  obtain ⟨a, rfl⟩ := hx
  exact ⟨Real.sin a, rfl⟩

theorem IsReal.cos {x : EReal} (hx : IsReal x) : IsReal (Ideal.cos x) := by
  obtain ⟨a, rfl⟩ := hx
  exact ⟨Real.cos a, rfl⟩

/-- The square root of a positive real is a positive real. -/
theorem IsPos.sqrt {x : EReal} (hx : IsPos x) : IsPos (Ideal.sqrt x) := by
  obtain ⟨a, ha, rfl⟩ := hx
  refine ⟨Real.sqrt a, Real.sqrt_pos.mpr ha, ?_⟩
  rw [Ideal.sqrt_coe, if_neg (not_lt.mpr ha.le)]

/-- A real divided by a positive real is a real. -/
theorem IsReal.div_pos {x y : EReal} (hx : IsReal x) (hy : IsPos y) : IsReal (Ideal.div x y) := by
  obtain ⟨b, hb, rfl⟩ := hy
  rw [Ideal.div_coe hb.ne']
  exact hx.mul (isReal_coe _)

/-- A sum of squares of reals plus a positive real is a positive real. -/
theorem isPos_sq_sum_add {ι : Type*} (s : Finset ι) (f : ι → EReal) (h : ∀ i ∈ s, IsReal (f i)) {z e : EReal}
    (hz : z = 0) (he : IsPos e) : IsPos ((z + ∑ i ∈ s, f i * f i) + e) := by
  classical
  obtain ⟨ε, hε, rfl⟩ := he
  have hs : ∃ t : ℝ, 0 ≤ t ∧ (∑ i ∈ s, f i * f i) = (t : EReal) := by
    induction s using Finset.induction_on with
    | empty => exact ⟨0, le_refl _, by simp⟩
    | insert a s ha ih =>
      obtain ⟨t, ht, et⟩ := ih (fun i hi => h i (Finset.mem_insert_of_mem hi))
      obtain ⟨r, er⟩ := h a (Finset.mem_insert_self a s)
      refine ⟨r * r + t, add_nonneg (mul_self_nonneg r) ht, ?_⟩
      rw [Finset.sum_insert ha, et, er, ← EReal.coe_mul, ← EReal.coe_add]
  obtain ⟨t, ht, et⟩ := hs
  refine ⟨t + ε, by positivity, ?_⟩
  rw [hz, zero_add, et, ← EReal.coe_add]

/-- The f32 word of `1e-8` denotes a positive real. -/
theorem isPos_eps : IsPos (Ideal.ofBits .f32 0x322BCC77#32) := by
  refine ⟨11258999 * (2 : ℝ) ^ (-50 : ℤ), by positivity, ?_⟩
  simp [Ideal.ofBits, Ideal.ieee, -EReal.coe_mul]

/-- The f32 word of `1.0` denotes `1`. -/
theorem ofBits_one : Ideal.ofBits .f32 0x3F800000#32 = 1 := by
  simp [Ideal.ofBits, Ideal.ieee, -EReal.coe_mul]; norm_num

/-- Every entry of a concatenation is an entry of one of its pieces. -/
theorem concatenate_mem {α : Type} (t : Shape) (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

end Cert.RealEntries

end
-- ==== Proof.RefValue.lean ====
import proofs.«166168_j66391604462138_2_alg».proof.Proof.RefLegs
import Idealize.ShloMosaic.PureOps.Ideal
import Idealize.ShloMosaic.PureOps.Ideal.Laws
import Idealize.ShloMosaic.PureOps.Reduce
import Idealize.ShloMosaic.Lib.ValueIdx
import proofs.«166168_j66391604462138_2_alg».proof.Proof.LibRealEntries

noncomputable section

namespace Cert.ReferenceIdeal.RefValue

open Cert.ReferenceIdeal Cert.ReferenceIdeal.Gen Cert.ReferenceIdeal.Read Idealize.ShloMosaic Idealize.ShloMosaic.ValueIdx

/-- The rotation matrix of the exponential map, as the reference computes it from the axis-angle vector. -/
def Rot (rot : Vec Ideal S3 .f32) : Vec Ideal S3x3 .f32 := val_main_v47 (F := Ideal) rot

/-- The transformed source points: row `i` of the rotation against the point, plus the translation. -/
def X (src : Vec Ideal S4x4096x3 .f32) (rot trans : Vec Ideal S3 .f32) : S4x4096x3.Idx → EReal := fun p =>
  (∑ j : Fin 3, src (ix3 (p 0) (p 1) j) * Rot rot (ix2 (p 2) j)) + trans (ix1 (p 2))

theorem X_apply (src : Vec Ideal S4x4096x3 .f32) (rot trans : Vec Ideal S3 .f32) (b : Fin 4) (n : Fin 4096) (i : Fin 3) :
    X src rot trans (ix3 b n i) = (∑ j : Fin 3, src (ix3 b n j) * Rot rot (ix2 i j)) + trans (ix1 i) := rfl

/-- The reference's first result is the transformed points. -/
theorem out0_eq (src : Vec Ideal S4x4096x3 .f32) (rot trans : Vec Ideal S3 .f32) :
    val_main_v51 (F := Ideal) src rot trans = X src rot trans := by
  funext p
  obtain ⟨b, n, i, rfl⟩ : ∃ (b : Fin 4) (n : Fin 4096) (i : Fin 3), p = ix3 b n i := ⟨p 0, p 1, p 2, eq_ix3 p⟩
  have el : ∀ k : Fin 3, lidx_main_v48 (ix3 b n i) k = ix3 b n k := fun k => funext fun a => Fin.ext (by
    match a with
    | ⟨0, _⟩ => rfl
    | ⟨1, _⟩ => rfl
    | ⟨2, _⟩ => rfl)
  have er : ∀ k : Fin 3, ridx_main_v48 (ix3 b n i) k = ix2 i k := fun k => funext fun a => Fin.ext (by
    match a with
    | ⟨0, _⟩ => rfl
    | ⟨1, _⟩ => rfl)
  have et : idx_main_v49 (idx_main_v50 (ix3 b n i)) = ix1 i := funext fun a => Fin.ext (by
    match a with
    | ⟨0, _⟩ => rfl)
  rw [X_apply, val_main_v51_apply, val_main_v48_apply, val_main_v50_apply, val_main_v49_apply, et]
  simp only [el, er, Ideal.addf_def, Rot]

/-- The reduced-axis lift of a row index `(b, n)` of a `[4, 4096, 4096]` array reduced over its last axis. -/
theorem lift_last (h : S4x4096x4096.Reduces [2] S4x4096) (b : Fin 4) (n : Fin 4096) (k : Fin 4096) :
    h.lift (ix2 b n) k = ix3 b n k := by
  funext c
  apply Fin.ext
  match c with
  | ⟨0, _⟩ => rfl
  | ⟨1, _⟩ => rfl
  | ⟨2, _⟩ => rfl

/-- Squared norm of a transformed point (with the zero the sum starts from). -/
def x2 (src : Vec Ideal S4x4096x3 .f32) (rot trans : Vec Ideal S3 .f32) (b : Fin 4) (n : Fin 4096) : EReal :=
  Ideal.ofBits .f32 0x00000000#32 + ∑ d : Fin 3, X src rot trans (ix3 b n d) * X src rot trans (ix3 b n d)

/-- Squared norm of a target point (with the zero the sum starts from). -/
def y2 (tgt : Vec Ideal S4x4096x3 .f32) (b : Fin 4) (m : Fin 4096) : EReal :=
  Ideal.ofBits .f32 0x00000000#32 + ∑ d : Fin 3, tgt (ix3 b m d) * tgt (ix3 b m d)

/-- Squared distance between transformed point `n` and target point `m` of batch `b`, in the expanded form. -/
def D2 (src tgt : Vec Ideal S4x4096x3 .f32) (rot trans : Vec Ideal S3 .f32) (b : Fin 4) (n m : Fin 4096) : EReal :=
  (x2 src rot trans b n + y2 tgt b m)
    - Ideal.ofBits .f32 0x40000000#32 * ∑ d : Fin 3, X src rot trans (ix3 b n d) * tgt (ix3 b m d)

/-- The smallest squared distance from transformed point `n` to a target point, from `+∞`. -/
def M (src tgt : Vec Ideal S4x4096x3 .f32) (rot trans : Vec Ideal S3 .f32) (b : Fin 4) (n : Fin 4096) : EReal :=
  (Finset.univ : Finset (Fin 4096)).fold min (Ideal.ofBits .f32 0x7F800000#32) (fun m => D2 src tgt rot trans b n m)

theorem d2_eq (src tgt : Vec Ideal S4x4096x3 .f32) (rot trans : Vec Ideal S3 .f32) (b : Fin 4) (n m : Fin 4096) :
    val_main_v64 (F := Ideal) src tgt rot trans (ix3 b n m) = D2 src tgt rot trans b n m := by
  have e53 : idx_main_v57 (idx_main_v59 (ix3 b n m)) = ix2 b n := funext fun a => Fin.ext (by
    match a with
    | ⟨0, _⟩ => rfl
    | ⟨1, _⟩ => rfl)
  have e55 : idx_main_v58 (idx_main_v60 (ix3 b n m)) = ix2 b m := funext fun a => Fin.ext (by
    match a with
    | ⟨0, _⟩ => rfl
    | ⟨1, _⟩ => rfl)
  have e53k : ∀ k : Fin 3, idx_main_v53 (ix2 b n) k = ix3 b n k := fun k => funext fun a => Fin.ext (by
    match a with
    | ⟨0, _⟩ => rfl
    | ⟨1, _⟩ => rfl
    | ⟨2, _⟩ => rfl)
  have e55k : ∀ k : Fin 3, idx_main_v55 (ix2 b m) k = ix3 b m k := fun k => funext fun a => Fin.ext (by
    match a with
    | ⟨0, _⟩ => rfl
    | ⟨1, _⟩ => rfl
    | ⟨2, _⟩ => rfl)
  have e56l : ∀ k : Fin 3, lidx_main_v56 (ix3 b n m) k = ix3 b n k := fun k => funext fun a => Fin.ext (by
    match a with
    | ⟨0, _⟩ => rfl
    | ⟨1, _⟩ => rfl
    | ⟨2, _⟩ => rfl)
  have e56r : ∀ k : Fin 3, ridx_main_v56 (ix3 b n m) k = ix3 b m k := fun k => funext fun a => Fin.ext (by
    match a with
    | ⟨0, _⟩ => rfl
    | ⟨1, _⟩ => rfl
    | ⟨2, _⟩ => rfl)
  rw [val_main_v64_apply, val_main_v61_apply, val_main_v63_apply, val_main_v59_apply, val_main_v57_apply, e53,
    val_main_v60_apply, val_main_v58_apply, e55, val_main_v53_apply, val_main_v55_apply, val_main_v56_apply,
    val_main_v62_apply, val_main_cst_8_apply, val_main_cst_6_apply, val_main_cst_7_apply]
  simp only [e53k, e55k, e56l, e56r, val_main_v52_apply, val_main_v54_apply, out0_eq, Ideal.addf_def, Ideal.subf_def,
    Ideal.mulf_def, Ideal.ofBits_def, D2, x2, y2]

/-- The row minimum of the reference is the fold of `min` from `+∞` over the target points. -/
theorem min_eq (src tgt : Vec Ideal S4x4096x3 .f32) (rot trans : Vec Ideal S3 .f32) (b : Fin 4) (n : Fin 4096) :
    val_main_v65 (F := Ideal) src tgt rot trans (ix2 b n) = M src tgt rot trans b n := by
  have h : S4x4096x4096.Reduces [2] S4x4096 := by decide
  unfold val_main_v65
  refine (Host.reduce_eq_fold_single (FloatOps.minimumf (F := Ideal) (φ := .f32)) _ _
    reducesTo_S4x4096x4096_S4x4096_d2 h h_S_ (ix2 b n)).trans ?_
  have e : (val_main_v64 (F := Ideal) src tgt rot trans ∘ h.lift (ix2 b n))
      = fun m : Fin 4096 => D2 src tgt rot trans b n m :=
    funext fun m => (congrArg _ (lift_last h b n m)).trans (d2_eq src tgt rot trans b n m)
  rw [e]
  rfl

/-- The reference's second result: the mean over the 16384 transformed points of the smallest squared distance. -/
theorem out1_eq (src tgt : Vec Ideal S4x4096x3 .f32) (rot trans : Vec Ideal S3 .f32) :
    val_main_v67 (F := Ideal) src tgt rot trans ix0
      = Ideal.div (Ideal.ofBits .f32 0x00000000#32 + ∑ b : Fin 4, ∑ n : Fin 4096, M src tgt rot trans b n)
          (Ideal.ofBits .f32 0x46800000#32) := by
  rw [val_main_v67_apply, val_main_v66_apply, val_main_cst_10_apply, val_main_cst_11_apply, sum_idx2]
  simp only [min_eq, Ideal.hostDivf_def, Ideal.ofBits_def]

open Cert.RealEntries in
/-- With a real axis-angle vector every entry of the rotation matrix is a real: the angle's square plus
    the positive `1e-8` is a positive real, so is its square root, and the two quotients by them are reals. -/
theorem Rot_real (rot : Vec Ideal S3 .f32) (hrot : ∀ i, ∃ r : ℝ, rot i = (r : EReal)) :
    ∀ p, ∃ r : ℝ, Rot rot p = (r : EReal) := by
  have hr : ∀ i, IsReal (rot i) := hrot
  -- the angle's square plus the positive constant, its root, and the two scalar coefficients
  have h2 : ∀ i, IsPos (val_main_v2 (F := Ideal) rot i) := fun i => by
    rw [val_main_v2_apply, val_main_v1_apply, val_main_cst_0_apply, val_main_cst_apply]
    exact isPos_sq_sum_add Finset.univ rot (fun j _ => hr j) Ideal.ofBits_zero_f32 isPos_eps
  have h8 : ∀ i, IsPos (val_main_v8 (F := Ideal) rot i) := fun i => by
    rw [val_main_v8_apply, val_main_v1_apply, val_main_cst_2_apply, val_main_cst_apply]
    exact isPos_sq_sum_add Finset.univ rot (fun j _ => hr j) Ideal.ofBits_zero_f32 isPos_eps
  have h3 : ∀ i, IsPos (val_main_v3 (F := Ideal) rot i) := fun i => by
    rw [val_main_v3_apply, Ideal.hostUnary_sqrt_def]
    exact (h2 i).sqrt
  have h5 : ∀ i, IsReal (val_main_v5 (F := Ideal) rot i) := fun i => by
    rw [val_main_v5_apply, val_main_v4_apply, Ideal.hostDivf_def, Ideal.hostUnary_sin_def]
    exact (h3 i).isReal.sin.div_pos (h3 i)
  have h9 : ∀ i, IsReal (val_main_v9 (F := Ideal) rot i) := fun i => by
    rw [val_main_v9_apply, val_main_v7_apply, val_main_v6_apply, val_main_cst_1_apply, Ideal.hostDivf_def,
      Ideal.hostUnary_cos_def, Ideal.subf_def, Ideal.ofBits_def, ofBits_one]
    exact (isReal_one.sub (h3 i).isReal.cos).div_pos (h8 i)
  -- the three coordinates of the vector as scalars, and their negations
  have h11 : ∀ i, IsReal (val_main_v11 (F := Ideal) rot i) := fun i => by
    unfold val_main_v11 shapeCast
    rw [val_main_v10_apply]
    exact hr _
  have h13 : ∀ i, IsReal (val_main_v13 (F := Ideal) rot i) := fun i => by
    unfold val_main_v13 shapeCast
    rw [val_main_v12_apply]
    exact hr _
  have h15 : ∀ i, IsReal (val_main_v15 (F := Ideal) rot i) := fun i => by
    unfold val_main_v15 shapeCast
    rw [val_main_v14_apply]
    exact hr _
  have h16 : ∀ i, IsReal (val_main_v16 (F := Ideal) rot i) := fun i => by
    rw [val_main_v16_apply, Ideal.hostNegf_def, Ideal.negf_def]
    exact (h15 i).neg
  have h17 : ∀ i, IsReal (val_main_v17 (F := Ideal) rot i) := fun i => by
    rw [val_main_v17_apply, Ideal.hostNegf_def, Ideal.negf_def]
    exact (h11 i).neg
  have h18 : ∀ i, IsReal (val_main_v18 (F := Ideal) rot i) := fun i => by
    rw [val_main_v18_apply, Ideal.hostNegf_def, Ideal.negf_def]
    exact (h13 i).neg
  have hz : IsReal (Ideal.ofBits .f32 0x00000000#32) := by
    rw [Ideal.ofBits_zero_f32]
    exact isReal_zero
  -- the rows of the skew matrix, and the matrix
  have h22 : ∀ i, IsReal (val_main_v22 (F := Ideal) rot i) := fun i => by
    unfold val_main_v22
    refine concatenate_mem _ _ _ _ IsReal (fun p hp i => ?_) i
    simp only [List.mem_cons, List.mem_nil_iff, or_false] at hp
    rcases hp with rfl | rfl | rfl <;> dsimp only
    · rw [val_main_v19_apply, val_main_cst_3_apply]
      exact hz
    · rw [val_main_v20_apply]
      exact h16 _
    · rw [val_main_v21_apply]
      exact h13 _
  have h27 : ∀ i, IsReal (val_main_v27 (F := Ideal) rot i) := fun i => by
    unfold val_main_v27
    refine concatenate_mem _ _ _ _ IsReal (fun p hp i => ?_) i
    simp only [List.mem_cons, List.mem_nil_iff, or_false] at hp
    rcases hp with rfl | rfl | rfl <;> dsimp only
    · rw [val_main_v24_apply]
      exact h15 _
    · rw [val_main_v25_apply, val_main_cst_4_apply]
      exact hz
    · rw [val_main_v26_apply]
      exact h17 _
  have h32 : ∀ i, IsReal (val_main_v32 (F := Ideal) rot i) := fun i => by
    unfold val_main_v32
    refine concatenate_mem _ _ _ _ IsReal (fun p hp i => ?_) i
    simp only [List.mem_cons, List.mem_nil_iff, or_false] at hp
    rcases hp with rfl | rfl | rfl <;> dsimp only
    · rw [val_main_v29_apply]
      exact h18 _
    · rw [val_main_v30_apply]
      exact h11 _
    · rw [val_main_v31_apply, val_main_cst_5_apply]
      exact hz
  have h34 : ∀ i, IsReal (val_main_v34 (F := Ideal) rot i) := fun i => by
    unfold val_main_v34
    refine concatenate_mem _ _ _ _ IsReal (fun p hp i => ?_) i
    simp only [List.mem_cons, List.mem_nil_iff, or_false] at hp
    rcases hp with rfl | rfl | rfl <;> dsimp only
    · rw [val_main_v23_apply]
      exact h22 _
    · rw [val_main_v28_apply]
      exact h27 _
    · rw [val_main_v33_apply]
      exact h32 _
  -- the identity, and the two terms added to it
  have h40 : ∀ i, IsReal (val_main_v40 (F := Ideal) i) := fun i => by
    rw [val_main_v40_apply]
    exact ⟨_, rfl⟩
  have h44 : ∀ i, IsReal (val_main_v44 (F := Ideal) rot i) := fun i => by
    rw [val_main_v44_apply]
    exact IsReal.sum _ _ (fun k _ => (h34 _).mul (h34 _))
  intro p
  show IsReal (val_main_v47 (F := Ideal) rot p)
  rw [val_main_v47_apply, val_main_v43_apply, val_main_v46_apply, val_main_v42_apply, val_main_v41_apply,
    val_main_v45_apply, Ideal.addf_def, Ideal.addf_def, Ideal.mulf_def, Ideal.mulf_def]
  exact ((h40 p).add ((h5 _).mul (h34 p))).add ((h9 _).mul (h44 p))

end Cert.ReferenceIdeal.RefValue

end
-- ==== Proof.LibIdxSums.lean ====
/-
  Sums over the index set of an array of rank 1 or 3, coordinate by coordinate.

  An index of a rank-`n` array is the tuple of its coordinates, so a sum over all indices is the iterated sum over
  the coordinate ranges (`sum_idx1`, `sum_idx3`; the rank-2 case is the library's `sum_idx2`).  A sum over the
  indices of a rank-3 array whose MIDDLE coordinate is fixed — what a reduction over the two outer axes adds up
  for one entry of its result — is the double sum over the two outer coordinates (`sum_filter_mid3`).  All of it
  holds in any commutative monoid, in particular on the extended reals where no finiteness is needed.
-/
import Idealize.ShloMosaic.Lib.ValueIdx

noncomputable section

open scoped BigOperators

namespace Cert.Lib

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The indices of a rank-3 array with middle coordinate `b`: summing over them is summing over the first and the
    last coordinate. -/
theorem sum_filter_mid3 {M : Type*} [AddCommMonoid M] {n0 n1 n2 : Nat} (f : (⟨3, ![n0, n1, n2]⟩ : Shape).Idx → M)
    (b : Fin n1) :
    ∑ i ∈ Finset.univ.filter (fun i : (⟨3, ![n0, n1, n2]⟩ : Shape).Idx => (i 1).val = b.val), f i
      = ∑ a : Fin n0, ∑ c : Fin n2, f (ix3 a b c) := by
  rw [Finset.sum_filter, sum_idx3]
  refine Finset.sum_congr rfl fun a _ => ?_
  rw [Finset.sum_comm]
  refine Finset.sum_congr rfl fun c _ => ?_
  rw [Finset.sum_eq_single b]
  · exact if_pos rfl
  · intro b' _ hb'
    exact if_neg fun e => hb' (Fin.ext e)
  · intro hb
    exact absurd (Finset.mem_univ b) hb

end Cert.Lib

end
-- ==== Proof.KernelIdeal.HostSide.lean ====
import proofs.«166168_j66391604462138_2_alg».proof.Proof.KernelIdeal.Kit
import proofs.«166168_j66391604462138_2_alg».proof.Proof.RefValue
import proofs.«166168_j66391604462138_2_alg».proof.Proof.LibIdxSums
import Idealize.ShloMosaic.Lib.StableHlo.Run
import Idealize.ShloMosaic.Lib.Pipeline.FrameSuffix
import Idealize.ShloMosaic.Lib.Pipeline.Value
import Idealize.ShloMosaic.PureOps.Ideal.Laws

set_option maxRecDepth 16384

noncomputable section

namespace Cert.KernelIdeal.HostSide

open Idealize.ShloMosaic Idealize.ShloMosaic.TcCoe Idealize.SL.Sem Idealize.ShloMosaic.StableHlo
open Idealize.ShloMosaic.ValueIdx
open Cert.KernelIdeal Cert.KernelIdeal.Gen Cert.KernelIdeal.Hand

variable (m : (ℓ : Loc nD τ sig) → Buf (Elt Ideal) ℓ)

/-- The matrix the region finds: the transpose of the rotation matrix of the axis-angle argument. -/
theorem V_v48 (c : Dev nD) :
    (V m c main_v48 : S3x3.Idx → EReal)
      = transpose S3x3 [1, 0] (Cert.ReferenceIdeal.RefValue.Rot (m ((c : Thread nD τ).loc main_arg2)))
          transposes_S3x3_S3x3_1_0 := by
  show StableHlo.after hostOps0 (fun b => m (c, b)) (Proc.devRef .tc main_v48) = _
  after_results_simp
  rfl

theorem V_v48_apply (c : Dev nD) (j i : Fin 3) :
    (V m c main_v48 : S3x3.Idx → EReal) (ix2 j i)
      = Cert.ReferenceIdeal.RefValue.Rot (m ((c : Thread nD τ).loc main_arg2)) (ix2 i j) := by
  refine (congrFun (V_v48 m c) (ix2 j i)).trans ?_
  exact transpose_apply [1, 0] _ transposes_S3x3_S3x3_1_0 (ix2 j i) (ix2 i j) (fun b => by
    match b with
    | ⟨0, _⟩ => rfl
    | ⟨1, _⟩ => rfl)

/-- The target cloud the region finds: its last two axes exchanged. -/
theorem V_v49 (c : Dev nD) :
    (V m c main_v49 : S4x3x4096.Idx → EReal)
      = transpose S4x3x4096 [0, 2, 1] (m ((c : Thread nD τ).loc main_arg1)) transposes_S4x4096x3_S4x3x4096_0_2_1 := by
  show StableHlo.after hostOps0 (fun b => m (c, b)) (Proc.devRef .tc main_v49) = _
  after_results_simp

theorem V_v49_apply (c : Dev nD) (b : Fin 4) (d : Fin 3) (k : Fin 4096) :
    (V m c main_v49 : S4x3x4096.Idx → EReal) (ix3 b d k) = m ((c : Thread nD τ).loc main_arg1) (ix3 b k d) := by
  refine (congrFun (V_v49 m c) (ix3 b d k)).trans ?_
  exact transpose_apply [0, 2, 1] _ transposes_S4x4096x3_S4x3x4096_0_2_1 (ix3 b d k) (ix3 b k d) (fun a => by
    match a with
    | ⟨0, _⟩ => rfl
    | ⟨1, _⟩ => rfl
    | ⟨2, _⟩ => rfl)

/-- The array of row minima the region leaves (its second output), at its literal type. -/
def minArr (dats : (p : Fin 1) → (c : Dev nD) → Pipeline.Dat τ (Elt Ideal) Unit ℕ (UR sig nD τ) ℕ (cfgs p) c)
    (c : Dev nD) : S4x4096x1.Idx → EReal := (dats 0 c).arrAt 5 cfg0.N

theorem minArr_eq (dats : (p : Fin 1) → (c : Dev nD) → Pipeline.Dat τ (Elt Ideal) Unit ℕ (UR sig nD τ) ℕ (cfgs p) c)
    (c : Dev nD) : minArr dats c = (dats 0 c).arrAt 5 cfg0.N := rfl

/-- The mean the host computes after the region, from the array of row minima the region leaves. -/
theorem tail_v52_arr (dats : (p : Fin 1) → (c : Dev nD) → Pipeline.Dat τ (Elt Ideal) Unit ℕ (UR sig nD τ) ℕ (cfgs p) c)
    (c : Dev nD) :
    (Pipeline.afterTail₀ cfgs dats 0 (V0 m) [hostOps1] c main_v52 : S_.Idx → EReal)
      = Host.divf (Host.reduceAdd (F := Ideal) (minArr dats c)
          (constant (F := Ideal) S_ .f32 0x00000000#32) reducesTo_S4x4096x1_S_d0_1_2 h_S_)
          (constant (F := Ideal) S_ .f32 0x46800000#32) := by
  unfold Pipeline.afterTail₀
  show StableHlo.after hostOps1 _ (Proc.devRef .tc main_v52) = _
  after_results
  rw [show Pipeline.withArrays (cfgs 0).spec c (V0 m c) (fun w => (dats 0 c).arrAt w (cfgs 0).N)
      (Proc.tc.devRef main_v50_1) = minArr dats c from
    Pipeline.withArrays_arr spec0 launch0.win.arr_inj c _ _ 5]

/-- Read at its one index: the zero the sum starts from plus the sum over batches and points of the row minima,
    divided by the point count's word. -/
theorem tail_v52 (dats : (p : Fin 1) → (c : Dev nD) → Pipeline.Dat τ (Elt Ideal) Unit ℕ (UR sig nD τ) ℕ (cfgs p) c)
    (c : Dev nD) :
    (Pipeline.afterTail₀ cfgs dats 0 (V0 m) [hostOps1] c main_v52 : S_.Idx → EReal) ix0
      = Ideal.div (Ideal.ofBits .f32 0x00000000#32 + ∑ b : Fin 4, ∑ n : Fin 4096, minArr dats c (ix3 b n 0))
          (Ideal.ofBits .f32 0x46800000#32) := by
  refine (congrFun (tail_v52_arr m dats c) ix0).trans ?_
  show Ideal.div (Ideal.hostReduceAdd reducesTo_S4x4096x1_S_d0_1_2 (minArr dats c)
      (Ideal.ofBits .f32 0x00000000#32) ix0) (Ideal.ofBits .f32 0x46800000#32) = _
  rw [Ideal.hostReduceAdd_total reducesTo_S4x4096x1_S_d0_1_2 (fun b => b.elim0) _ _ ix0, Cert.Lib.sum_idx3]
  simp only [Fin.sum_univ_one]

end Cert.KernelIdeal.HostSide

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibAffineRow.lean ====
/-
  An affine layer read at an index, on the extended reals.

  * A bias vector `[N]` cast to one row `[1, N]` and broadcast over `M` rows reads, at `(r, j)`, the bias at `j`.
  * A matrix product of an `M×K` by a `K×N` matrix into a zero accumulator, plus such a bias, reads at `(r, j)`
    `Σₖ l[r,k]·w[k,j] + b[j]`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«166168_j66391604462138_2_alg».proof.Proof.LibPlainDot

noncomputable section

open scoped BigOperators

namespace Cert.Lib

open Idealize.ShloMosaic Idealize.ShloMosaic.ValueIdx

/-- A bias vector cast to one row and broadcast over the rows, at `(r, j)`, is the bias at `j`. -/
theorem bias_rows_apply {α : Type} {M N : ℕ} (b : (⟨1, ![N]⟩ : Shape).Idx → α)
    (hs : (⟨1, ![N]⟩ : Shape).ShapeCasts ⟨2, ![1, N]⟩) (hb : (⟨2, ![1, N]⟩ : Shape).Broadcasts ⟨2, ![M, N]⟩)
    (r : Fin M) (j : Fin N) :
    broadcastTo ⟨2, ![M, N]⟩ (shapeCast ⟨2, ![1, N]⟩ b hs) hb (ix2 r j) = b (ix1 j) :=
  (broadcastTo_1b_ab_apply (shapeCast ⟨2, ![1, N]⟩ b hs) hb r j).trans (shapeCast_a_1a_apply b hs 0 j)

/-- AN AFFINE LAYER at `(r, j)`: the product into a zero accumulator plus the bias row is `Σₖ l[r,k]·w[k,j] + b[j]`. -/
theorem matmul_bias_apply (M K N : ℕ) {φ₁ φ₂ : FTy} (prec : Option ContractPrecision)
    (l : FVec Ideal ⟨2, ![M, K]⟩ φ₁) (w : FVec Ideal ⟨2, ![K, N]⟩ φ₂) (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (j : Fin N) :
    addf (matmul (DotDims.plain M K N) prec l w (constant ⟨2, ![M, N]⟩ .f32 0x00000000#32))
        (broadcastTo ⟨2, ![M, N]⟩ (shapeCast ⟨2, ![1, N]⟩ b hs) hb) (ix2 r j)
      = (∑ k : Fin K, l (ix2 r k) * w (ix2 k j)) + b (ix1 j) := by
  rw [addf_apply, plain_matmul_zero_apply, bias_rows_apply]

end Cert.Lib

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColReduce.lean ====
/-
  A row's minimum and a column's sum, read at an index, on the extended reals.

  * A minimum of an `[a, b]` array over its second axis reads, at row `r`, the fold of `min` from the starting value
    over the entries `(r, k)`, `k : Fin b`.
  * A sum of an `[a, b]` array over its first axis reads, at column `k`, the sum of the entries `(d, k)`, `d : Fin a`.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row_snd {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row minimum: the fold of `min` from the starting value over the row's entries. -/
theorem multiReduction_min_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ X acc h hφ hacc (ix1 r)
      = (Finset.univ : Finset (Fin b)).fold min (Ideal.ofBits φ acc) (fun k => X (ix2 r k)) := by
  refine (multiReduction_minimumf_eq_fold X acc h hφ hacc (ix1 r)).trans ?_
  refine (h.fold_filter_drop_single _ _ X (ix1 r)).trans ?_
  have e : (X ∘ h.lift (ix1 r)) = fun k : Fin b => X (ix2 r k) := funext fun k => congrArg X (lift_row_snd h r k)
  rw [e]
  rfl

/-- Over result column `k`, the source index with `d` on the reduced first axis is `(d, k)`. -/
theorem lift_col {a b : ℕ} (h : (⟨2, ![a, b]⟩ : Shape).Reduces [0] ⟨1, ![b]⟩) (k : Fin b) (d : Fin a) :
    h.lift (ix1 k) d = ix2 d k := by
  funext c
  apply Fin.ext
  match c with
  | ⟨0, _⟩ => rfl
  | ⟨1, _⟩ => rfl

/-- A column sum: the sum of the column's entries. -/
theorem multiReduction_add_col {a b : ℕ} {φ : FTy} (X : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (k : Fin b) :
    multiReduction .add [0] ⟨1, ![b]⟩ X acc h hφ hacc (ix1 k) = ∑ d : Fin a, X (ix2 d k) := by
  refine (Ideal.multiReduction_add_single X acc h hφ hacc (ix1 k)).trans ?_
  exact Finset.sum_congr rfl fun d _ => congrArg X (lift_col h k d)

end Cert.Lib

end
-- ==== Proof.KernelIdeal.Payloads.lean ====
/-
  The kernel body's stored values read at an index, on the extended reals.

  The body stores four values. With the query block `x : [1, 1024, 3]`, the rotation `w : [3, 3]`, the translation
  `b : [3]`, the transformed block `y : [1, 1024, 3]`, the target block `t : [1, 3, 1024]` and the running minimum
  `m : [1, 1024, 1]`:
  * the transformed block at `(0, r, i)` is `Σⱼ x[0,r,j]·w[j,i] + b[i]`;
  * the first running minimum at `(0, r, 0)` is the word of `+∞`;
  * the updated running minimum at `(0, r, 0)` is the minimum of `m[0,r,0]` and the minimum over the 1024 targets
    `k` of `Σ_d y[0,r,d]·(t[0,d,k]·c) + Σ_d t[0,d,k]·t[0,d,k]` (`c` the word of `-2`);
  * the final value at `(0, r, 0)` is `m[0,r,0] + Σ_d y[0,r,d]·y[0,r,d]`.
  Every index of the two stored shapes has a leading coordinate `0`, and the minimum's also a trailing `0`.
-/
import proofs.«166168_j66391604462138_2_alg».proof.Proof.Gen.KernelIdeal.Skeleton
import proofs.«166168_j66391604462138_2_alg».proof.Proof.LibAffineRow
import proofs.«166168_j66391604462138_2_alg».proof.Proof.LibRowReduce
import proofs.«166168_j66391604462138_2_alg».proof.Proof.LibKeepdims
import proofs.«166168_j66391604462138_2_alg».proof.Proof.LibColReduce
import Idealize.ShloMosaic.Lib.ValueIdx
import Idealize.ShloMosaic.Lib.ValueLayout

noncomputable section

open scoped BigOperators

namespace Cert.KernelIdeal.Pay

open Cert.KernelIdeal Cert.KernelIdeal.Gen Idealize.ShloMosaic Idealize.ShloMosaic.ValueIdx Cert.Lib

/-! ## Every index by its coordinates -/

/-- Every index of a `[1, 1024, 3]` block is `(0, r, i)`. -/
theorem idx_1x1024x3 (j : S1x1024x3.Idx) : ∃ (r : Fin 1024) (i : Fin 3), j = ix3 (0 : Fin 1) r i := by
  refine ⟨j 1, j 2, ?_⟩
  funext a
  match a with
  | ⟨0, h0⟩ =>
    refine Fin.ext ?_
    have h : (j ⟨0, h0⟩).val < 1 := (j ⟨0, h0⟩).isLt
    show (j ⟨0, h0⟩).val = 0
    omega
  | ⟨1, _⟩ => rfl
  | ⟨2, _⟩ => rfl

/-- Every index of a `[1, 1024, 1]` block is `(0, r, 0)`. -/
theorem idx_1x1024x1 (j : S1x1024x1.Idx) : ∃ r : Fin 1024, j = ix3 (0 : Fin 1) r (0 : Fin 1) := by
  refine ⟨j 1, ?_⟩
  funext a
  match a with
  | ⟨0, h0⟩ =>
    refine Fin.ext ?_
    have h : (j ⟨0, h0⟩).val < 1 := (j ⟨0, h0⟩).isLt
    show (j ⟨0, h0⟩).val = 0
    omega
  | ⟨1, _⟩ => rfl
  | ⟨2, h2⟩ =>
    refine Fin.ext ?_
    have h : (j ⟨2, h2⟩).val < 1 := (j ⟨2, h2⟩).isLt
    show (j ⟨2, h2⟩).val = 0
    omega

/-- Every index of a `[1, 3, 1024]` block is `(0, d, k)`. -/
theorem idx_1x3x1024 (j : S1x3x1024.Idx) : ∃ (d : Fin 3) (k : Fin 1024), j = ix3 (0 : Fin 1) d k := by
  refine ⟨j 1, j 2, ?_⟩
  funext a
  match a with
  | ⟨0, h0⟩ =>
    refine Fin.ext ?_
    have h : (j ⟨0, h0⟩).val < 1 := (j ⟨0, h0⟩).isLt
    show (j ⟨0, h0⟩).val = 0
    omega
  | ⟨1, _⟩ => rfl
  | ⟨2, _⟩ => rfl

/-! ## The transformed block -/

/-- The query block without its leading unit axis, at `(r, k)`. -/
theorem pay3_apply (v3 : Vec Ideal S1x1024x3 .f32) (r : Fin 1024) (k : Fin 3) :
    k0_pay3 (F := Ideal) v3 (ix2 r k) = v3 (ix3 (0 : Fin 1) r k) := by
  unfold k0_pay3
  exact shapeCast_1ab_ab_apply v3 shapeCasts_S1x1024x3_S1024x3 r k

/-- THE TRANSFORMED BLOCK at `(0, r, i)`: `Σⱼ x[0,r,j]·w[j,i] + b[i]`. -/
theorem pay1_apply (v26 : Vec Ideal S1x1024x3 .f32) (v28 : Vec Ideal S3x3 .f32) (v30 : Vec Ideal S3 .f32)
    (r : Fin 1024) (i : Fin 3) :
    k0_pay1 (F := Ideal) v26 v28 v30 (ix3 (0 : Fin 1) r i)
      = (∑ j : Fin 3, v26 (ix3 (0 : Fin 1) r j) * v28 (ix2 j i)) + v30 (ix1 i) := by
  unfold k0_pay1
  refine (shapeCast_ab_1ab_apply _ shapeCasts_S1024x3_S1x1024x3 (0 : Fin 1) r i).trans ?_
  refine (matmul_bias_apply 1024 3 3 (some .fp32) _ _ v30 shapeCasts_S3_S1x3 broadcasts_S1x3_S1024x3 r i).trans ?_
  refine congrArg (· + v30 (ix1 i)) (Finset.sum_congr rfl fun k _ => ?_)
  rw [shapeCast_self]
  exact congrArg (· * v28 (ix2 k i)) (shapeCast_1ab_ab_apply v26 shapeCasts_S1x1024x3_S1024x3 r k)

/-! ## The first running minimum -/

/-- THE FIRST RUNNING MINIMUM at `(0, r, 0)`: the word of `+∞`. -/
theorem pay2_apply (r : Fin 1024) :
    k0_pay2 (F := Ideal) (ix3 (0 : Fin 1) r (0 : Fin 1)) = Ideal.ofBits .f32 0x7F800000#32 := by
  unfold k0_pay2
  exact shapeCast_ab_1ab_apply _ shapeCasts_S1024x1_S1x1024x1 (0 : Fin 1) r (0 : Fin 1)

/-! ## The final value -/

/-- THE FINAL VALUE at `(0, r, 0)`: the running minimum plus the squared norm of the transformed point. -/
theorem pay5_apply (v3 : Vec Ideal S1x1024x3 .f32) (v29 : Vec Ideal S1x1024x1 .f32) (r : Fin 1024) :
    k0_pay5 (F := Ideal) v3 v29 (ix3 (0 : Fin 1) r (0 : Fin 1))
      = v29 (ix3 (0 : Fin 1) r (0 : Fin 1)) + ∑ d : Fin 3, v3 (ix3 (0 : Fin 1) r d) * v3 (ix3 (0 : Fin 1) r d) := by
  unfold k0_pay5
  refine (shapeCast_ab_1ab_apply _ shapeCasts_S1024x1_S1x1024x1 (0 : Fin 1) r (0 : Fin 1)).trans ?_
  refine (addf_apply _ _ _).trans ?_
  refine congrArg₂ (· + ·) (shapeCast_1ab_ab_apply v29 shapeCasts_S1x1024x1_S1024x1 r (0 : Fin 1)) ?_
  refine (shapeCast_a_a1_apply _ shapeCasts_S1024_S1024x1 r (0 : Fin 1)).trans ?_
  refine (multiReduction_add_row _ _ reduces_S1024x3_S1024 _ _ r).trans ?_
  exact Finset.sum_congr rfl fun d _ => by rw [mulf_apply, pay3_apply]

/-! ## The updated running minimum -/

/-- THE UPDATED RUNNING MINIMUM at `(0, r, 0)`: the minimum of the running minimum and, over the 1024 targets `k`, of
    `Σ_d y[0,r,d]·(t[0,d,k]·c) + Σ_d t[0,d,k]·t[0,d,k]`, `c` the word of `-2`; the fold starts from the word of `+∞`. -/
theorem pay4_apply (v3 : Vec Ideal S1x1024x3 .f32) (v5 : Vec Ideal S1x3x1024 .f32) (v17 : Vec Ideal S1x1024x1 .f32)
    (r : Fin 1024) :
    k0_pay4 (F := Ideal) v3 v5 v17 (ix3 (0 : Fin 1) r (0 : Fin 1))
      = min (v17 (ix3 (0 : Fin 1) r (0 : Fin 1)))
          ((Finset.univ : Finset (Fin 1024)).fold min (Ideal.ofBits .f32 0x7F800000#32) fun k =>
            (∑ d : Fin 3, v3 (ix3 (0 : Fin 1) r d) * (v5 (ix3 (0 : Fin 1) d k) * Ideal.ofBits .f32 0xC0000000#32))
              + ∑ d : Fin 3, v5 (ix3 (0 : Fin 1) d k) * v5 (ix3 (0 : Fin 1) d k)) := by
  unfold k0_pay4
  refine (shapeCast_ab_1ab_apply _ shapeCasts_S1024x1_S1x1024x1 (0 : Fin 1) r (0 : Fin 1)).trans ?_
  refine (minimumf_apply _ _ _).trans ?_
  refine congrArg₂ min (shapeCast_1ab_ab_apply v17 shapeCasts_S1x1024x1_S1024x1 r (0 : Fin 1)) ?_
  refine (shapeCast_a_a1_apply _ shapeCasts_S1024_S1024x1 r (0 : Fin 1)).trans ?_
  refine (multiReduction_min_row _ _ reduces_S1024x1024_S1024 _ _ r).trans ?_
  refine congrArg (Finset.fold min (Ideal.ofBits .f32 0x7F800000#32) · Finset.univ) (funext fun k => ?_)
  refine (addf_apply _ _ _).trans ?_
  refine congrArg₂ (· + ·) ?_ ?_
  · refine (plain_matmul_zero_apply 1024 3 1024 (some .fp32) _ _ r k).trans ?_
    refine Finset.sum_congr rfl fun d _ => ?_
    refine congrArg₂ (· * ·) (pay3_apply v3 r d) ?_
    refine (mulf_apply _ _ _).trans ?_
    exact congrArg (· * Ideal.ofBits .f32 0xC0000000#32) (shapeCast_1ab_ab_apply v5 shapeCasts_S1x3x1024_S3x1024 d k)
  · refine (broadcastTo_1b_ab_apply _ broadcasts_S1x1024_S1024x1024 r k).trans ?_
    refine (shapeCast_a_1a_apply _ shapeCasts_S1024_S1x1024 (0 : Fin 1) k).trans ?_
    refine (multiReduction_add_col _ _ reduces_S3x1024_S1024 _ _ k).trans ?_
    refine Finset.sum_congr rfl fun d _ => ?_
    refine (mulf_apply _ _ _).trans ?_
    rw [shapeCast_1ab_ab_apply v5 shapeCasts_S1x3x1024_S3x1024 d k]

end Cert.KernelIdeal.Pay

end
-- ==== Proof.KernelIdeal.Blocks.lean ====
import proofs.«166168_j66391604462138_2_alg».proof.Proof.KernelIdeal.Outs
import proofs.«166168_j66391604462138_2_alg».proof.Proof.KernelIdeal.HostSide
import proofs.«166168_j66391604462138_2_alg».proof.Proof.KernelIdeal.Payloads
import proofs.«166168_j66391604462138_2_alg».proof.Proof.RefValue
import Idealize.ShloMosaic.Lib.Pipeline.Value

set_option maxRecDepth 16384

noncomputable section

namespace Cert.KernelIdeal.Blocks

open Idealize.ShloMosaic Idealize.ShloMosaic.TcCoe Idealize.SL.Sem
open Idealize.ShloMosaic.ValueIdx
open Idealize.ShloMosaic.Pipeline (Dat)
open Cert.KernelIdeal Cert.KernelIdeal.Gen Cert.KernelIdeal.Hand

variable (m : (ℓ : Loc nD τ sig) → Buf (Elt Ideal) ℓ)

/-! ## The grid: a point is (batch, query tile, key tile) -/

theorem t_lt (t : Fin cfg0.N) : t.val < 64 := lt_of_lt_of_eq t.isLt N_0

/-- The batch of a point. -/
abbrev bOf (t : Fin cfg0.N) : Fin 4 := ⟨t.val / 16, by have := t_lt t; omega⟩
/-- Row `r` of a point's query tile, as a row of the cloud. -/
abbrev rowOf (t : Fin cfg0.N) (r : Fin 1024) : Fin 4096 :=
  ⟨1024 * ((t.val / 4) % 4) + r.val, by have := r.isLt; omega⟩
/-- Key `k` of a point's key tile, as a row of the target cloud. -/
abbrev keyOf (t : Fin cfg0.N) (k : Fin 1024) : Fin 4096 :=
  ⟨1024 * (t.val % 4) + k.val, by have := k.isLt; omega⟩

/-- The windows' block indices at each point, decided over the grid. -/
theorem idx_facts : ∀ t : Fin cfg0.N,
    win0_0.index t (0 : Fin 3) = t.val / 16 ∧ win0_0.index t (1 : Fin 3) = (t.val / 4) % 4 ∧ win0_0.index t (2 : Fin 3) = 0
    ∧ win0_1.index t (0 : Fin 3) = t.val / 16 ∧ win0_1.index t (1 : Fin 3) = 0 ∧ win0_1.index t (2 : Fin 3) = t.val % 4
    ∧ win0_2.index t (0 : Fin 2) = 0 ∧ win0_2.index t (1 : Fin 2) = 0
    ∧ win0_3.index t (0 : Fin 1) = 0
    ∧ win0_4.index t (0 : Fin 3) = t.val / 16 ∧ win0_4.index t (1 : Fin 3) = (t.val / 4) % 4 ∧ win0_4.index t (2 : Fin 3) = 0
    ∧ win0_5.index t (0 : Fin 3) = t.val / 16 ∧ win0_5.index t (1 : Fin 3) = (t.val / 4) % 4 ∧ win0_5.index t (2 : Fin 3) = 0 :=
  (by decide +kernel : ∀ t : Fin grid0.N, _)

/-! ## The input blocks at explicit coordinates -/

/-- The source block of a point: rows of its query tile, of its batch. -/
theorem iblk0_apply (c : Dev nD) (t : Fin cfg0.N) (r : Fin 1024) (j : Fin 3) :
    iblk m c 0 t (ix3 (0 : Fin 1) r j) = m ((c : Thread nD τ).loc main_arg0) (ix3 (bOf t) (rowOf t r) j) := by
  show V m c main_arg0 (((cfg0.win 0).blk t).view.emb (ix3 (0 : Fin 1) r j)) = _
  rw [V_main_arg0]
  obtain ⟨e0, e1, e2, -⟩ := idx_facts t
  refine congrArg _ (funext fun a => Fin.ext ?_)
  match a with
  | ⟨0, _⟩ => show win0_0.index t (0 : Fin 3) * 1 + 1 * 0 = t.val / 16; omega
  | ⟨1, _⟩ => show win0_0.index t (1 : Fin 3) * 1024 + 1 * r.val = 1024 * ((t.val / 4) % 4) + r.val; omega
  | ⟨2, _⟩ => show win0_0.index t (2 : Fin 3) * 3 + 1 * j.val = j.val; omega

/-- The target block of a point: the keys of its key tile, of its batch, coordinate-major. -/
theorem iblk1_apply (c : Dev nD) (t : Fin cfg0.N) (d : Fin 3) (k : Fin 1024) :
    iblk m c 1 t (ix3 (0 : Fin 1) d k) = m ((c : Thread nD τ).loc main_arg1) (ix3 (bOf t) (keyOf t k) d) := by
  show V m c main_v49 (((cfg0.win 1).blk t).view.emb (ix3 (0 : Fin 1) d k)) = _
  obtain ⟨-, -, -, e0, e1, e2, -⟩ := idx_facts t
  have e : ((cfg0.win 1).blk t).view.emb (ix3 (0 : Fin 1) d k) = ix3 (bOf t) d (keyOf t k) :=
    funext fun a => Fin.ext (by
      match a with
      | ⟨0, _⟩ => show win0_1.index t (0 : Fin 3) * 1 + 1 * 0 = t.val / 16; omega
      | ⟨1, _⟩ => show win0_1.index t (1 : Fin 3) * 3 + 1 * d.val = d.val; omega
      | ⟨2, _⟩ => show win0_1.index t (2 : Fin 3) * 1024 + 1 * k.val = 1024 * (t.val % 4) + k.val; omega)
  rw [e]
  exact HostSide.V_v49_apply m c (bOf t) d (keyOf t k)

/-- The matrix block of a point: the whole transposed rotation matrix. -/
theorem iblk2_apply (c : Dev nD) (t : Fin cfg0.N) (j i : Fin 3) :
    iblk m c 2 t (ix2 j i) = Cert.ReferenceIdeal.RefValue.Rot (m ((c : Thread nD τ).loc main_arg2)) (ix2 i j) := by
  show V m c main_v48 (((cfg0.win 2).blk t).view.emb (ix2 j i)) = _
  obtain ⟨-, -, -, -, -, -, e0, e1, -⟩ := idx_facts t
  have e : ((cfg0.win 2).blk t).view.emb (ix2 j i) = ix2 j i :=
    funext fun a => Fin.ext (by
      match a with
      | ⟨0, _⟩ => show win0_2.index t (0 : Fin 2) * 3 + 1 * j.val = j.val; omega
      | ⟨1, _⟩ => show win0_2.index t (1 : Fin 2) * 3 + 1 * i.val = i.val; omega)
  rw [e]
  exact HostSide.V_v48_apply m c j i

/-- The translation block of a point: the whole translation. -/
theorem iblk3_apply (c : Dev nD) (t : Fin cfg0.N) (i : Fin 3) :
    iblk m c 3 t (ix1 i) = m ((c : Thread nD τ).loc main_arg3) (ix1 i) := by
  show V m c main_arg3 (((cfg0.win 3).blk t).view.emb (ix1 i)) = _
  rw [V_main_arg3]
  obtain ⟨-, -, -, -, -, -, -, -, e0, -⟩ := idx_facts t
  refine congrArg _ (funext fun a => Fin.ext ?_)
  match a with
  | ⟨0, _⟩ => show win0_3.index t (0 : Fin 1) * 3 + 1 * i.val = i.val; omega

/-! ## The output blocks -/

/-- An index of the transformed-points array is in point `t`'s block iff each coordinate is in the block's range. -/
theorem mem_blk4 (t : Fin cfg0.N) (i : S4x4096x3.Idx) :
    i ∈ ((cfg0.win 4).blk t).view.set ↔ ∀ a : Fin 3, win0_4.index t a * S1x1024x3.size a ≤ (i a).val
      ∧ (i a).val < win0_4.index t a * S1x1024x3.size a + S1x1024x3.size a := by
  show i ∈ ((View.whole main_v50_0).slice (win0_4.rect t)).set ↔ _
  rw [View.set_slice_whole, Rect.mem_set_unit]
  exact Iff.rfl

/-- An index of the row-minima array is in point `t`'s block iff each coordinate is in the block's range. -/
theorem mem_blk5 (t : Fin cfg0.N) (i : S4x4096x1.Idx) :
    i ∈ ((cfg0.win 5).blk t).view.set ↔ ∀ a : Fin 3, win0_5.index t a * S1x1024x1.size a ≤ (i a).val
      ∧ (i a).val < win0_5.index t a * S1x1024x1.size a + S1x1024x1.size a := by
  show i ∈ ((View.whole main_v50_1).slice (win0_5.rect t)).set ↔ _
  rw [View.set_slice_whole, Rect.mem_set_unit]
  exact Iff.rfl

/-- Where a coordinate of point `t`'s transformed-points block sits in the array. -/
theorem emb4 (t : Fin cfg0.N) (r : Fin 1024) (i : Fin 3) :
    ((cfg0.win 4).blk t).view.emb (ix3 (0 : Fin 1) r i) = ix3 (bOf t) (rowOf t r) i := by
  obtain ⟨-, -, -, -, -, -, -, -, -, e0, e1, e2, -⟩ := idx_facts t
  refine funext fun a => Fin.ext ?_
  match a with
  | ⟨0, _⟩ => show win0_4.index t (0 : Fin 3) * 1 + 1 * 0 = t.val / 16; omega
  | ⟨1, _⟩ => show win0_4.index t (1 : Fin 3) * 1024 + 1 * r.val = 1024 * ((t.val / 4) % 4) + r.val; omega
  | ⟨2, _⟩ => show win0_4.index t (2 : Fin 3) * 3 + 1 * i.val = i.val; omega

/-- Where a coordinate of point `t`'s row-minima block sits in the array. -/
theorem emb5 (t : Fin cfg0.N) (r : Fin 1024) :
    ((cfg0.win 5).blk t).view.emb (ix3 (0 : Fin 1) r (0 : Fin 1)) = ix3 (bOf t) (rowOf t r) (0 : Fin 1) := by
  obtain ⟨-, -, -, -, -, -, -, -, -, -, -, -, e0, e1, e2⟩ := idx_facts t
  refine funext fun a => Fin.ext ?_
  match a with
  | ⟨0, _⟩ => show win0_5.index t (0 : Fin 3) * 1 + 1 * 0 = t.val / 16; omega
  | ⟨1, _⟩ => show win0_5.index t (1 : Fin 3) * 1024 + 1 * r.val = 1024 * ((t.val / 4) % 4) + r.val; omega
  | ⟨2, _⟩ => show win0_5.index t (2 : Fin 3) * 1 + 1 * 0 = 0; omega

/-- The last key tile of the (batch, query tile) pair that holds a row of the cloud. -/
abbrev lastOf (b : Fin 4) (n : Fin 4096) : Fin cfg0.N :=
  ⟨16 * b.val + 4 * (n.val / 1024) + 3, lt_of_lt_of_eq (by have := b.isLt; have := n.isLt; omega) N_0.symm⟩

/-- Every index of the transformed-points array is in the block some last key tile writes back. -/
theorem cover4 (i : S4x4096x3.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 3 := (i 2).isLt
  have tv : (lastOf (i 0) (i 1)).val = 16 * (i 0).val + 4 * ((i 1).val / 1024) + 3 := rfl
  obtain ⟨-, -, -, -, -, -, -, -, -, e0, e1, e2, -⟩ := idx_facts (lastOf (i 0) (i 1))
  refine ⟨lastOf (i 0) (i 1), (flush0_4 _).mpr (by omega), ?_⟩
  rw [mem_blk4]
  intro a
  match a with
  | ⟨0, _⟩ =>
    show win0_4.index (lastOf (i 0) (i 1)) (0 : Fin 3) * 1 ≤ (i 0).val
      ∧ (i 0).val < win0_4.index (lastOf (i 0) (i 1)) (0 : Fin 3) * 1 + 1
    omega
  | ⟨1, _⟩ =>
    show win0_4.index (lastOf (i 0) (i 1)) (1 : Fin 3) * 1024 ≤ (i 1).val
      ∧ (i 1).val < win0_4.index (lastOf (i 0) (i 1)) (1 : Fin 3) * 1024 + 1024
    omega
  | ⟨2, _⟩ =>
    show win0_4.index (lastOf (i 0) (i 1)) (2 : Fin 3) * 3 ≤ (i 2).val
      ∧ (i 2).val < win0_4.index (lastOf (i 0) (i 1)) (2 : Fin 3) * 3 + 3
    omega

/-- Every index of the row-minima array is in the block some last key tile writes back. -/
theorem cover5 (i : S4x4096x1.Idx) :
    ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 1 := (i 2).isLt
  have tv : (lastOf (i 0) (i 1)).val = 16 * (i 0).val + 4 * ((i 1).val / 1024) + 3 := rfl
  obtain ⟨-, -, -, -, -, -, -, -, -, -, -, -, e0, e1, e2⟩ := idx_facts (lastOf (i 0) (i 1))
  refine ⟨lastOf (i 0) (i 1), (flush0_5 _).mpr (by omega), ?_⟩
  rw [mem_blk5]
  intro a
  match a with
  | ⟨0, _⟩ =>
    show win0_5.index (lastOf (i 0) (i 1)) (0 : Fin 3) * 1 ≤ (i 0).val
      ∧ (i 0).val < win0_5.index (lastOf (i 0) (i 1)) (0 : Fin 3) * 1 + 1
    omega
  | ⟨1, _⟩ =>
    show win0_5.index (lastOf (i 0) (i 1)) (1 : Fin 3) * 1024 ≤ (i 1).val
      ∧ (i 1).val < win0_5.index (lastOf (i 0) (i 1)) (1 : Fin 3) * 1024 + 1024
    omega
  | ⟨2, _⟩ =>
    show win0_5.index (lastOf (i 0) (i 1)) (2 : Fin 3) * 1 ≤ (i 2).val
      ∧ (i 2).val < win0_5.index (lastOf (i 0) (i 1)) (2 : Fin 3) * 1 + 1
    omega

end Cert.KernelIdeal.Blocks

end
-- ==== Proof.KernelIdeal.Final4.lean ====
/-
  The transformed-points array after the run is the reference's transformed points: each block is written back after
  the last key tile of its (batch, query tile) pair, holds what the first key tile of the pair computed from the
  pair's source block, and the blocks tile the array.
-/
import proofs.«166168_j66391604462138_2_alg».proof.Proof.KernelIdeal.Blocks
import proofs.«166168_j66391604462138_2_alg».proof.Proof.KernelIdeal.Pieces

set_option maxRecDepth 16384

noncomputable section

namespace Cert.KernelIdeal.Blocks

open Idealize.ShloMosaic Idealize.ShloMosaic.TcCoe Idealize.SL.Sem
open Idealize.ShloMosaic.ValueIdx
open Idealize.ShloMosaic.Pipeline (Dat)
open Cert.KernelIdeal Cert.KernelIdeal.Gen Cert.KernelIdeal.Hand

variable (m : (ℓ : Loc nD τ sig) → Buf (Elt Ideal) ℓ)

/-! ## The transformed-points array after the run -/

/-- What a last key tile writes back into the transformed-points array is its block of the reference's transformed
    points: the block was made at the first key tile of the run of four, from that point's source block, and the four
    points share the batch and the query tile. -/
theorem flushed4_eq (c : Dev nD) (t : Fin cfg0.N) (hf : (cfg0.win 4).flush t = true) :
    (dats m 0 c).flushed 4 t = ((cfg0.win 4).blk t).view.read (Elt Ideal)
      (Cert.ReferenceIdeal.RefValue.X (m ((c : Thread nD τ).loc main_arg0)) (m ((c : Thread nD τ).loc main_arg2))
        (m ((c : Thread nD τ).loc main_arg3))) := by
  have h3 : t.val % 4 = 3 := (flush0_4 t).mp hf
  show (cfg0.win 4).cut (grid0.coords t) ((dats m 0 c).after 4 t) = _
  rw [after0_4]
  obtain ⟨tv, ht⟩ := t
  obtain ⟨n, rfl⟩ : ∃ n, tv = n + 3 := ⟨tv - 3, by dsimp only at h3; omega⟩
  have hn : n % 4 = 0 := by dsimp only at h3; omega
  have hn' : n < cfg0.N := by omega
  rw [congrArg Prod.fst (outsAt0_run4 m c n hn ht)]
  funext j
  obtain ⟨r, i, rfl⟩ := Pay.idx_1x1024x3 j
  show k0_pay1 (F := Ideal) (iblk m c 0 ⟨n, hn'⟩) (iblk m c 2 ⟨n, hn'⟩) (iblk m c 3 ⟨n, hn'⟩) (ix3 (0 : Fin 1) r i)
    = Cert.ReferenceIdeal.RefValue.X (m ((c : Thread nD τ).loc main_arg0)) (m ((c : Thread nD τ).loc main_arg2))
        (m ((c : Thread nD τ).loc main_arg3)) (((cfg0.win 4).blk ⟨n + 3, ht⟩).view.emb (ix3 (0 : Fin 1) r i))
  rw [emb4, Cert.ReferenceIdeal.RefValue.X_apply]
  refine (Pay.pay1_apply (iblk m c 0 ⟨n, hn'⟩) (iblk m c 2 ⟨n, hn'⟩) (iblk m c 3 ⟨n, hn'⟩) r i).trans ?_
  rw [iblk3_apply]
  refine congrArg₂ (· + ·) (Finset.sum_congr rfl fun j _ => ?_) rfl
  rw [iblk0_apply, iblk2_apply]
  have eb : bOf ⟨n, hn'⟩ = bOf ⟨n + 3, ht⟩ := Fin.ext (by show n / 16 = (n + 3) / 16; omega)
  have er : rowOf ⟨n, hn'⟩ r = rowOf ⟨n + 3, ht⟩ r :=
    Fin.ext (by show 1024 * ((n / 4) % 4) + r.val = 1024 * (((n + 3) / 4) % 4) + r.val; omega)
  rw [eb, er]

/-- THE TRANSFORMED-POINTS ARRAY after the run is the reference's transformed points. -/
theorem final4 (c : Dev nD) :
    (dats m 0 c).arrAt 4 cfg0.N
      = Cert.ReferenceIdeal.RefValue.X (m ((c : Thread nD τ).loc main_arg0)) (m ((c : Thread nD τ).loc main_arg2))
          (m ((c : Thread nD τ).loc main_arg3)) :=
  (dats m 0 c).arrAt_eq_of_cover 4 _ (fun t hf => flushed4_eq m c t hf) cover4

end Cert.KernelIdeal.Blocks

end
-- ==== Proof.LibNearestMin.lean ====
/-
  General lemmas on extended reals for a nearest-neighbour (minimum squared distance) computation:
  adding a real constant commutes with a finite minimum; a minimum over P·Q keys is the minimum of the P block minima;
  the expansion |x − y|² = |x|² + |y|² − 2⟨x, y⟩ on coerced reals; the float words −2, 2, +∞, 16384, 0 as extended reals;
  finite sums and nonempty finite minima of reals are reals.
-/
import Mathlib
import Idealize.ShloMosaic.PureOps.Ideal

noncomputable section

namespace LibNearestMin

open Idealize.ShloMosaic
open scoped BigOperators

/-! ## Coercion of finite sums -/

/-- The coercion ℝ → EReal of a finite sum is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum of coerced reals is (the coercion of) a real. -/
theorem sum_coe_real {ι : Type*} (s : Finset ι) (f : ι → ℝ) :
    ∃ r : ℝ, ∑ i ∈ s, (f i : EReal) = (r : EReal) :=
  ⟨∑ i ∈ s, f i, (coe_sum s f).symm⟩

/-- A finite sum of products of coerced reals is (the coercion of) the real sum of products. -/
theorem sum_coe_mul_coe {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-! ## Adding a real constant commutes with a finite minimum -/

/-- Adding a real on the right is monotone, so it commutes with a binary minimum. -/
theorem min_add_coe (a b : EReal) (c : ℝ) : min a b + (c : EReal) = min (a + c) (b + c) :=
  Monotone.map_min (f := fun x : EReal => x + (c : EReal)) (fun _ _ hab => add_le_add hab le_rfl)

/-- A finite minimum started at +∞, plus a real constant, is the minimum of the shifted terms (+∞ + c = +∞). -/
theorem fold_min_add_const {ι : Type*} (s : Finset ι) (f : ι → EReal) (c : ℝ) :
    s.fold min ⊤ f + (c : EReal) = s.fold min ⊤ (fun k => f k + (c : EReal)) := by
  classical
  refine Finset.induction_on s ?_ ?_
  · simp
  · intro a s ha ih
    rw [Finset.fold_insert ha, Finset.fold_insert ha, ← ih, min_add_coe]

/-- A real constant plus a finite minimum started at +∞ is the minimum of the shifted terms. -/
theorem const_add_fold_min {ι : Type*} (s : Finset ι) (f : ι → EReal) (c : ℝ) :
    (c : EReal) + s.fold min ⊤ f = s.fold min ⊤ (fun k => (c : EReal) + f k) := by
  rw [add_comm, fold_min_add_const]
  exact congrArg (fun g => s.fold min ⊤ g) (funext fun k => add_comm _ _)

/-! ## A minimum over P·Q keys as the minimum of block minima -/

/-- Key k of block j, of P blocks of Q keys, is a key below P·Q. -/
theorem block_idx_lt {P Q : ℕ} (j : Fin P) (k : Fin Q) : Q * j.val + k.val < P * Q := by
  have hj := j.isLt
  have hk := k.isLt
  calc Q * j.val + k.val < Q * j.val + Q := by omega
    _ = Q * (j.val + 1) := by ring
    _ ≤ Q * P := Nat.mul_le_mul_left _ hj
    _ = P * Q := Nat.mul_comm _ _

/-- The minimum over P·Q keys is the minimum over the P blocks of the minimum over each block's Q keys. -/
theorem fold_min_blocks (P Q : ℕ) (g : Fin (P * Q) → EReal) :
    Finset.univ.fold min ⊤ g =
      Finset.univ.fold min ⊤ fun j : Fin P =>
        Finset.univ.fold min ⊤ fun k : Fin Q => g ⟨Q * j.val + k.val, block_idx_lt j k⟩ := by
  refine eq_of_forall_le_iff fun c => ?_
  simp only [Finset.le_fold_min, Finset.mem_univ, true_imp_iff, le_top, true_and]
  constructor
  · intro h j k
    exact h _
  · intro h x
    have hx : x.val < P * Q := x.isLt
    have hQ : 0 < Q := by
      refine Nat.pos_of_ne_zero ?_
      rintro rfl
      simp at hx
    have hj : x.val / Q < P := Nat.div_lt_of_lt_mul (lt_of_lt_of_eq hx (Nat.mul_comm P Q))
    have := h ⟨x.val / Q, hj⟩ ⟨x.val % Q, Nat.mod_lt _ hQ⟩
    have e : (⟨Q * (x.val / Q) + x.val % Q, block_idx_lt ⟨x.val / Q, hj⟩ ⟨x.val % Q, Nat.mod_lt _ hQ⟩⟩ : Fin (P * Q)) = x :=
      Fin.ext (Nat.div_add_mod _ _)
    rwa [e] at this

/-- A minimum over four terms started at +∞ is the running minimum taken in order. -/
theorem fold_min_fin4 (F : Fin 4 → EReal) :
    Finset.univ.fold min ⊤ F = min (min (min (min ⊤ (F 0)) (F 1)) (F 2)) (F 3) := by
  refine eq_of_forall_le_iff fun c => ?_
  simp only [Finset.le_fold_min, Finset.mem_univ, true_imp_iff, le_top, true_and, le_min_iff]
  constructor
  · intro h
    exact ⟨⟨⟨h 0, h 1⟩, h 2⟩, h 3⟩
  · rintro ⟨⟨⟨h0, h1⟩, h2⟩, h3⟩ x
    fin_cases x <;> assumption

/-- The minimum over 4096 keys is the running minimum, started at +∞, of four block minima taken in order,
    for any four functions that read the four consecutive blocks of 1024 keys. -/
theorem fold_min_blocks4_of (g : Fin 4096 → EReal) (f0 f1 f2 f3 : Fin 1024 → EReal)
    (h0 : ∀ k : Fin 1024, f0 k = g ⟨k.val, by omega⟩)
    (h1 : ∀ k : Fin 1024, f1 k = g ⟨1024 + k.val, by omega⟩)
    (h2 : ∀ k : Fin 1024, f2 k = g ⟨2048 + k.val, by omega⟩)
    (h3 : ∀ k : Fin 1024, f3 k = g ⟨3072 + k.val, by omega⟩) :
    Finset.univ.fold min ⊤ g =
      min (min (min (min ⊤ (Finset.univ.fold min ⊤ f0)) (Finset.univ.fold min ⊤ f1)) (Finset.univ.fold min ⊤ f2))
        (Finset.univ.fold min ⊤ f3) := by
  refine eq_of_forall_le_iff fun c => ?_
  simp only [Finset.le_fold_min, Finset.mem_univ, true_imp_iff, le_top, true_and, le_min_iff, h0, h1, h2, h3]
  constructor
  · intro h
    exact ⟨⟨⟨fun k => h _, fun k => h _⟩, fun k => h _⟩, fun k => h _⟩
  · rintro ⟨⟨⟨a0, a1⟩, a2⟩, a3⟩ x
    have hx := x.isLt
    by_cases c1 : x.val < 1024
    · have := a0 ⟨x.val, c1⟩; exact this
    · by_cases c2 : x.val < 2048
      · have := a1 ⟨x.val - 1024, by omega⟩
        have e : (⟨1024 + (x.val - 1024), by omega⟩ : Fin 4096) = x := Fin.ext (by simp only []; omega)
        rwa [e] at this
      · by_cases c3 : x.val < 3072
        · have := a2 ⟨x.val - 2048, by omega⟩
          have e : (⟨2048 + (x.val - 2048), by omega⟩ : Fin 4096) = x := Fin.ext (by simp only []; omega)
          rwa [e] at this
        · have := a3 ⟨x.val - 3072, by omega⟩
          have e : (⟨3072 + (x.val - 3072), by omega⟩ : Fin 4096) = x := Fin.ext (by simp only []; omega)
          rwa [e] at this

/-- The minimum over 4096 keys is the running minimum, started at +∞, of the minima over the four blocks
    of 1024 keys, block j holding the keys 1024·j + k. -/
theorem fold_min_blocks_4x1024 (g : Fin 4096 → EReal) :
    Finset.univ.fold min ⊤ g =
      min (min (min (min ⊤
        (Finset.univ.fold min ⊤ fun k : Fin 1024 => g ⟨1024 * 0 + k.val, by omega⟩))
        (Finset.univ.fold min ⊤ fun k : Fin 1024 => g ⟨1024 * 1 + k.val, by omega⟩))
        (Finset.univ.fold min ⊤ fun k : Fin 1024 => g ⟨1024 * 2 + k.val, by omega⟩))
        (Finset.univ.fold min ⊤ fun k : Fin 1024 => g ⟨1024 * 3 + k.val, by omega⟩) :=
  fold_min_blocks4_of g _ _ _ _ (fun k => congrArg g (Fin.ext (by simp))) (fun k => congrArg g (Fin.ext (by simp)))
    (fun k => congrArg g (Fin.ext (by simp))) (fun k => congrArg g (Fin.ext (by simp)))

/-! ## The squared distance, expanded -/

/-- On coerced reals: ∑ x·(y·(−2)) + ∑ y·y + ∑ x·x = (∑ x·x + ∑ y·y) − 2·∑ x·y. -/
theorem sq_dist_expand {ι : Type*} (s : Finset ι) (x y : ι → ℝ) :
    ((∑ d ∈ s, (x d : EReal) * ((y d : EReal) * ((-2 : ℝ) : EReal))) + (∑ d ∈ s, (y d : EReal) * (y d : EReal)))
        + (∑ d ∈ s, (x d : EReal) * (x d : EReal))
      = ((∑ d ∈ s, (x d : EReal) * (x d : EReal)) + (∑ d ∈ s, (y d : EReal) * (y d : EReal)))
        - ((2 : ℝ) : EReal) * (∑ d ∈ s, (x d : EReal) * (y d : EReal)) := by
  have e1 : ∑ d ∈ s, (x d : EReal) * ((y d : EReal) * ((-2 : ℝ) : EReal))
      = ((∑ d ∈ s, x d * (y d * (-2)) : ℝ) : EReal) := by
    rw [coe_sum]
    exact Finset.sum_congr rfl fun i _ => by rw [EReal.coe_mul, EReal.coe_mul]
  have e2 : (∑ d ∈ s, x d * (y d * (-2)) : ℝ) = -2 * ∑ d ∈ s, x d * y d := by
    rw [Finset.mul_sum]
    exact Finset.sum_congr rfl fun i _ => by ring
  rw [e1, sum_coe_mul_coe, sum_coe_mul_coe, sum_coe_mul_coe, ← EReal.coe_add, ← EReal.coe_add, ← EReal.coe_add,
    ← EReal.coe_mul, ← EReal.coe_sub, e2]
  congr 1
  ring

/-- The same expansion with a leading 0 + in front of every sum. -/
theorem sq_dist_expand_zero {ι : Type*} (s : Finset ι) (x y : ι → ℝ) :
    (((0 : EReal) + ∑ d ∈ s, (x d : EReal) * ((y d : EReal) * ((-2 : ℝ) : EReal)))
        + ((0 : EReal) + ∑ d ∈ s, (y d : EReal) * (y d : EReal)))
        + ((0 : EReal) + ∑ d ∈ s, (x d : EReal) * (x d : EReal))
      = (((0 : EReal) + ∑ d ∈ s, (x d : EReal) * (x d : EReal)) + ((0 : EReal) + ∑ d ∈ s, (y d : EReal) * (y d : EReal)))
        - ((2 : ℝ) : EReal) * ((0 : EReal) + ∑ d ∈ s, (x d : EReal) * (y d : EReal)) := by
  simp only [zero_add]
  exact sq_dist_expand s x y

/-- The squared distance itself: ∑ (x − y)² on coerced reals is (∑ x·x + ∑ y·y) − 2·∑ x·y. -/
theorem sum_sub_sq_expand {ι : Type*} (s : Finset ι) (x y : ι → ℝ) :
    ∑ d ∈ s, ((x d : EReal) - (y d : EReal)) * ((x d : EReal) - (y d : EReal))
      = ((∑ d ∈ s, (x d : EReal) * (x d : EReal)) + (∑ d ∈ s, (y d : EReal) * (y d : EReal)))
        - ((2 : ℝ) : EReal) * (∑ d ∈ s, (x d : EReal) * (y d : EReal)) := by
  have e1 : ∑ d ∈ s, ((x d : EReal) - (y d : EReal)) * ((x d : EReal) - (y d : EReal))
      = ((∑ d ∈ s, (x d - y d) * (x d - y d) : ℝ) : EReal) := by
    rw [coe_sum]
    exact Finset.sum_congr rfl fun i _ => by rw [EReal.coe_mul, EReal.coe_sub]
  rw [e1, sum_coe_mul_coe, sum_coe_mul_coe, sum_coe_mul_coe, ← EReal.coe_add, ← EReal.coe_mul, ← EReal.coe_sub]
  congr 1
  rw [Finset.mul_sum, ← Finset.sum_add_distrib, ← Finset.sum_sub_distrib]
  exact Finset.sum_congr rfl fun i _ => by ring

/-! ## The float words of the computation -/

/-- The word 0xC0000000 denotes −2. -/
theorem ofBits_neg_two : Ideal.ofBits .f32 0xC0000000#32 = ((-2 : ℝ) : EReal) := by
  simp [Ideal.ofBits, Ideal.ieee, -EReal.coe_mul]; norm_num

/-- The word 0x40000000 denotes 2. -/
theorem ofBits_two : Ideal.ofBits .f32 0x40000000#32 = ((2 : ℝ) : EReal) := by
  simp [Ideal.ofBits, Ideal.ieee, -EReal.coe_mul]; norm_num

/-- The word 0x7F800000 denotes +∞. -/
theorem ofBits_inf : Ideal.ofBits .f32 0x7F800000#32 = (⊤ : EReal) := by
  simp [Ideal.ofBits, Ideal.ieee]

/-- The word 0x46800000 denotes 16384. -/
theorem ofBits_16384 : Ideal.ofBits .f32 0x46800000#32 = ((16384 : ℝ) : EReal) := by
  simp [Ideal.ofBits, Ideal.ieee, -EReal.coe_mul]; norm_num

/-- The word 0x00000000 denotes 0. -/
theorem ofBits_zero : Ideal.ofBits .f32 0x00000000#32 = (0 : EReal) := by
  simp [Ideal.ofBits, Ideal.ieee]

/-! ## Minima of reals are reals -/

/-- The coercion ℝ → EReal is monotone, so it commutes with a binary minimum. -/
theorem coe_min (a b : ℝ) : ((min a b : ℝ) : EReal) = min (a : EReal) (b : EReal) :=
  Monotone.map_min EReal.coe_strictMono.monotone

/-- The minimum of a real and a finite minimum (started at +∞) of reals is a real. -/
theorem min_coe_fold_min_real {ι : Type*} (s : Finset ι) (f : ι → ℝ) :
    ∀ a : ℝ, ∃ r : ℝ, min (a : EReal) (s.fold min ⊤ fun k => (f k : EReal)) = (r : EReal) := by
  classical
  refine Finset.induction_on s ?_ ?_
  · intro a
    exact ⟨a, by simp⟩
  · intro b s hb ih a
    obtain ⟨r, hr⟩ := ih (min a (f b))
    refine ⟨r, ?_⟩
    rw [Finset.fold_insert hb, ← min_assoc, ← coe_min, hr]

/-- A minimum, started at +∞, of reals over a nonempty finite set is a real. -/
theorem fold_min_coe_real_of_nonempty {ι : Type*} (s : Finset ι) (hs : s.Nonempty) (f : ι → ℝ) :
    ∃ r : ℝ, (s.fold min ⊤ fun k => (f k : EReal)) = (r : EReal) := by
  classical
  obtain ⟨b, hb⟩ := hs
  obtain ⟨r, hr⟩ := min_coe_fold_min_real (s.erase b) f (f b)
  refine ⟨r, ?_⟩
  rw [← Finset.insert_erase hb, Finset.fold_insert (Finset.notMem_erase b s)]
  exact hr

/-- A minimum, started at +∞, of reals over the n + 1 indices of Fin (n + 1) is a real. -/
theorem fold_min_coe_real (n : ℕ) (f : Fin (n + 1) → ℝ) :
    ∃ r : ℝ, (Finset.univ.fold min ⊤ fun k => (f k : EReal)) = (r : EReal) :=
  fold_min_coe_real_of_nonempty Finset.univ Finset.univ_nonempty f

end LibNearestMin

end
-- ==== Proof.RowLaw.lean ====
/-
  The law of one query point. The running minimum over four blocks of 1024 keys of the partial terms
  |y|² − 2⟨x, y⟩, to which |x|² is added at the end, is the single minimum over the 4096 keys of
  (|x|² + |y|²) − 2⟨x, y⟩: adding the real |x|² commutes with the minimum, the blocks cover the keys, and the two
  arrangements of the squared distance agree on reals. Also: sums over the index sets of the [4, 4096, 1] and
  [4, 4096] arrays as double sums over their coordinates.
-/
import proofs.«166168_j66391604462138_2_alg».proof.Proof.LibNearestMin
import proofs.«166168_j66391604462138_2_alg».proof.Proof.LibIdxSums
import Idealize.ShloMosaic.Lib.ValueIdx

noncomputable section

namespace Cert.Proof.RowLaw

open Idealize.ShloMosaic
open scoped BigOperators

/-- The running minimum with a real added at the end: if the four block functions read the four consecutive blocks of
    a per-key term, the added value is a real, and g is the per-key term plus that value, then the running minimum of
    the block minima plus the value is the minimum of g over all keys. -/
theorem running_min_add (hkey g : Fin 4096 → EReal) (f0 f1 f2 f3 : Fin 1024 → EReal) (x2 : EReal) (r : ℝ)
    (hx2 : x2 = (r : EReal))
    (hf0 : ∀ k : Fin 1024, f0 k = hkey ⟨k.val, by omega⟩)
    (hf1 : ∀ k : Fin 1024, f1 k = hkey ⟨1024 + k.val, by omega⟩)
    (hf2 : ∀ k : Fin 1024, f2 k = hkey ⟨2048 + k.val, by omega⟩)
    (hf3 : ∀ k : Fin 1024, f3 k = hkey ⟨3072 + k.val, by omega⟩)
    (hg : ∀ m : Fin 4096, g m = hkey m + x2) :
    min (min (min (min ⊤ (Finset.univ.fold min ⊤ f0)) (Finset.univ.fold min ⊤ f1)) (Finset.univ.fold min ⊤ f2))
        (Finset.univ.fold min ⊤ f3) + x2 = Finset.univ.fold min ⊤ g := by
  rw [← LibNearestMin.fold_min_blocks4_of hkey f0 f1 f2 f3 hf0 hf1 hf2 hf3, hx2, LibNearestMin.fold_min_add_const]
  exact congrArg (fun h => Finset.univ.fold min ⊤ h) (funext fun m => by rw [hg m, hx2])

/-- THE LAW OF ONE QUERY POINT, for a real point x and real keys y: block j's function is
    ∑ x·(y·(−2)) + ∑ y·y at the keys 1024·j + k, x2 is ∑ x·x, and g is (x2 + ∑ y·y) − 2·∑ x·y. -/
theorem row_law (x : Fin 3 → ℝ) (y : Fin 4096 → Fin 3 → ℝ) (f0 f1 f2 f3 : Fin 1024 → EReal) (g : Fin 4096 → EReal)
    (x2 : EReal) (hx2 : x2 = ∑ d, (x d : EReal) * (x d : EReal))
    (hf0 : ∀ k : Fin 1024, f0 k = (∑ d, (x d : EReal) * ((y ⟨k.val, by omega⟩ d : EReal) * ((-2 : ℝ) : EReal)))
        + (∑ d, (y ⟨k.val, by omega⟩ d : EReal) * (y ⟨k.val, by omega⟩ d : EReal)))
    (hf1 : ∀ k : Fin 1024, f1 k = (∑ d, (x d : EReal) * ((y ⟨1024 + k.val, by omega⟩ d : EReal) * ((-2 : ℝ) : EReal)))
        + (∑ d, (y ⟨1024 + k.val, by omega⟩ d : EReal) * (y ⟨1024 + k.val, by omega⟩ d : EReal)))
    (hf2 : ∀ k : Fin 1024, f2 k = (∑ d, (x d : EReal) * ((y ⟨2048 + k.val, by omega⟩ d : EReal) * ((-2 : ℝ) : EReal)))
        + (∑ d, (y ⟨2048 + k.val, by omega⟩ d : EReal) * (y ⟨2048 + k.val, by omega⟩ d : EReal)))
    (hf3 : ∀ k : Fin 1024, f3 k = (∑ d, (x d : EReal) * ((y ⟨3072 + k.val, by omega⟩ d : EReal) * ((-2 : ℝ) : EReal)))
        + (∑ d, (y ⟨3072 + k.val, by omega⟩ d : EReal) * (y ⟨3072 + k.val, by omega⟩ d : EReal)))
    (hg : ∀ m : Fin 4096, g m = (x2 + (∑ d, (y m d : EReal) * (y m d : EReal)))
        - ((2 : ℝ) : EReal) * ∑ d, (x d : EReal) * (y m d : EReal)) :
    min (min (min (min ⊤ (Finset.univ.fold min ⊤ f0)) (Finset.univ.fold min ⊤ f1)) (Finset.univ.fold min ⊤ f2))
        (Finset.univ.fold min ⊤ f3) + x2 = Finset.univ.fold min ⊤ g := by
  have hr : x2 = ((∑ d, x d * x d : ℝ) : EReal) := by rw [hx2, LibNearestMin.sum_coe_mul_coe]
  refine running_min_add
    (fun m => (∑ d, (x d : EReal) * ((y m d : EReal) * ((-2 : ℝ) : EReal))) + (∑ d, (y m d : EReal) * (y m d : EReal)))
    g f0 f1 f2 f3 x2 _ hr hf0 hf1 hf2 hf3 fun m => ?_
  rw [hg m, hx2]
  exact (LibNearestMin.sq_dist_expand Finset.univ x (y m)).symm

/-- The same law with the reductions' initial values z1, z2, z3, all zero, in front of the three sums of squares. -/
theorem row_law_z (x : Fin 3 → ℝ) (y : Fin 4096 → Fin 3 → ℝ) (f0 f1 f2 f3 : Fin 1024 → EReal) (g : Fin 4096 → EReal)
    (x2 z1 z2 z3 : EReal) (hz1 : z1 = 0) (hz2 : z2 = 0) (hz3 : z3 = 0)
    (hx2 : x2 = z1 + ∑ d, (x d : EReal) * (x d : EReal))
    (hf0 : ∀ k : Fin 1024, f0 k = (∑ d, (x d : EReal) * ((y ⟨k.val, by omega⟩ d : EReal) * ((-2 : ℝ) : EReal)))
        + (z2 + ∑ d, (y ⟨k.val, by omega⟩ d : EReal) * (y ⟨k.val, by omega⟩ d : EReal)))
    (hf1 : ∀ k : Fin 1024, f1 k = (∑ d, (x d : EReal) * ((y ⟨1024 + k.val, by omega⟩ d : EReal) * ((-2 : ℝ) : EReal)))
        + (z2 + ∑ d, (y ⟨1024 + k.val, by omega⟩ d : EReal) * (y ⟨1024 + k.val, by omega⟩ d : EReal)))
    (hf2 : ∀ k : Fin 1024, f2 k = (∑ d, (x d : EReal) * ((y ⟨2048 + k.val, by omega⟩ d : EReal) * ((-2 : ℝ) : EReal)))
        + (z2 + ∑ d, (y ⟨2048 + k.val, by omega⟩ d : EReal) * (y ⟨2048 + k.val, by omega⟩ d : EReal)))
    (hf3 : ∀ k : Fin 1024, f3 k = (∑ d, (x d : EReal) * ((y ⟨3072 + k.val, by omega⟩ d : EReal) * ((-2 : ℝ) : EReal)))
        + (z2 + ∑ d, (y ⟨3072 + k.val, by omega⟩ d : EReal) * (y ⟨3072 + k.val, by omega⟩ d : EReal)))
    (hg : ∀ m : Fin 4096, g m = (x2 + (z3 + ∑ d, (y m d : EReal) * (y m d : EReal)))
        - ((2 : ℝ) : EReal) * ∑ d, (x d : EReal) * (y m d : EReal)) :
    min (min (min (min ⊤ (Finset.univ.fold min ⊤ f0)) (Finset.univ.fold min ⊤ f1)) (Finset.univ.fold min ⊤ f2))
        (Finset.univ.fold min ⊤ f3) + x2 = Finset.univ.fold min ⊤ g := by
  subst hz1 hz2 hz3
  simp only [zero_add] at hx2 hf0 hf1 hf2 hf3 hg
  exact row_law x y f0 f1 f2 f3 g x2 hx2 hf0 hf1 hf2 hf3 hg

/-- The law with the inner product of g spelt ∑ y·x (the factors in the other order). -/
theorem row_law_z_comm (x : Fin 3 → ℝ) (y : Fin 4096 → Fin 3 → ℝ) (f0 f1 f2 f3 : Fin 1024 → EReal) (g : Fin 4096 → EReal)
    (x2 z1 z2 z3 : EReal) (hz1 : z1 = 0) (hz2 : z2 = 0) (hz3 : z3 = 0)
    (hx2 : x2 = z1 + ∑ d, (x d : EReal) * (x d : EReal))
    (hf0 : ∀ k : Fin 1024, f0 k = (∑ d, (x d : EReal) * ((y ⟨k.val, by omega⟩ d : EReal) * ((-2 : ℝ) : EReal)))
        + (z2 + ∑ d, (y ⟨k.val, by omega⟩ d : EReal) * (y ⟨k.val, by omega⟩ d : EReal)))
    (hf1 : ∀ k : Fin 1024, f1 k = (∑ d, (x d : EReal) * ((y ⟨1024 + k.val, by omega⟩ d : EReal) * ((-2 : ℝ) : EReal)))
        + (z2 + ∑ d, (y ⟨1024 + k.val, by omega⟩ d : EReal) * (y ⟨1024 + k.val, by omega⟩ d : EReal)))
    (hf2 : ∀ k : Fin 1024, f2 k = (∑ d, (x d : EReal) * ((y ⟨2048 + k.val, by omega⟩ d : EReal) * ((-2 : ℝ) : EReal)))
        + (z2 + ∑ d, (y ⟨2048 + k.val, by omega⟩ d : EReal) * (y ⟨2048 + k.val, by omega⟩ d : EReal)))
    (hf3 : ∀ k : Fin 1024, f3 k = (∑ d, (x d : EReal) * ((y ⟨3072 + k.val, by omega⟩ d : EReal) * ((-2 : ℝ) : EReal)))
        + (z2 + ∑ d, (y ⟨3072 + k.val, by omega⟩ d : EReal) * (y ⟨3072 + k.val, by omega⟩ d : EReal)))
    (hg : ∀ m : Fin 4096, g m = (x2 + (z3 + ∑ d, (y m d : EReal) * (y m d : EReal)))
        - ((2 : ℝ) : EReal) * ∑ d, (y m d : EReal) * (x d : EReal)) :
    min (min (min (min ⊤ (Finset.univ.fold min ⊤ f0)) (Finset.univ.fold min ⊤ f1)) (Finset.univ.fold min ⊤ f2))
        (Finset.univ.fold min ⊤ f3) + x2 = Finset.univ.fold min ⊤ g :=
  row_law_z x y f0 f1 f2 f3 g x2 z1 z2 z3 hz1 hz2 hz3 hx2 hf0 hf1 hf2 hf3 fun m => by
    rw [hg m]
    exact congrArg (fun s => (x2 + (z3 + ∑ d, (y m d : EReal) * (y m d : EReal))) - ((2 : ℝ) : EReal) * s)
      (Finset.sum_congr rfl fun d _ => mul_comm _ _)

/-- The minimum of one query point is a real: for a real point and real keys, the minimum over the 4096 keys of
    (x2 + ∑ y·y) − 2·∑ x·y, with x2 = ∑ x·x, is (the coercion of) a real number. -/
theorem row_real (x : Fin 3 → ℝ) (y : Fin 4096 → Fin 3 → ℝ) (g : Fin 4096 → EReal)
    (x2 : EReal) (hx2 : x2 = ∑ d, (x d : EReal) * (x d : EReal))
    (hg : ∀ m : Fin 4096, g m = (x2 + (∑ d, (y m d : EReal) * (y m d : EReal)))
        - ((2 : ℝ) : EReal) * ∑ d, (x d : EReal) * (y m d : EReal)) :
    ∃ r : ℝ, Finset.univ.fold min ⊤ g = (r : EReal) := by
  have e : g = fun m => (((∑ d, x d * x d) + (∑ d, y m d * y m d) - 2 * ∑ d, x d * y m d : ℝ) : EReal) := by
    funext m
    rw [hg m, hx2, LibNearestMin.sum_coe_mul_coe, LibNearestMin.sum_coe_mul_coe, LibNearestMin.sum_coe_mul_coe,
      ← EReal.coe_add, ← EReal.coe_mul, ← EReal.coe_sub]
  rw [e]
  exact LibNearestMin.fold_min_coe_real_of_nonempty Finset.univ ⟨⟨0, by norm_num⟩, Finset.mem_univ _⟩ _

/-- The same with the reductions' initial values z1, z3, both zero. -/
theorem row_real_z (x : Fin 3 → ℝ) (y : Fin 4096 → Fin 3 → ℝ) (g : Fin 4096 → EReal)
    (x2 z1 z3 : EReal) (hz1 : z1 = 0) (hz3 : z3 = 0) (hx2 : x2 = z1 + ∑ d, (x d : EReal) * (x d : EReal))
    (hg : ∀ m : Fin 4096, g m = (x2 + (z3 + ∑ d, (y m d : EReal) * (y m d : EReal)))
        - ((2 : ℝ) : EReal) * ∑ d, (x d : EReal) * (y m d : EReal)) :
    ∃ r : ℝ, Finset.univ.fold min ⊤ g = (r : EReal) := by
  subst hz1 hz3
  simp only [zero_add] at hx2 hg
  exact row_real x y g x2 hx2 hg

/-! ## Sums over the index sets of the [4, 4096, 1] and [4, 4096] arrays -/

/-- A sum over the indices of a [4, 4096, 1] array is the double sum over its first two coordinates, the last being 0. -/
theorem sum_idx_4x4096x1 {M : Type*} [AddCommMonoid M] (f : (⟨3, ![4, 4096, 1]⟩ : Shape).Idx → M) :
    ∑ i, f i = ∑ b : Fin 4, ∑ n : Fin 4096, f (ValueIdx.ix3 b n 0) := by
  rw [Cert.Lib.sum_idx3]
  refine Finset.sum_congr rfl fun b _ => Finset.sum_congr rfl fun n _ => ?_
  exact Fin.sum_univ_one _

/-- A sum over the indices of a [4, 4096] array is the double sum over its two coordinates. -/
theorem sum_idx_4x4096 {M : Type*} [AddCommMonoid M] (f : (⟨2, ![4, 4096]⟩ : Shape).Idx → M) :
    ∑ i, f i = ∑ b : Fin 4, ∑ n : Fin 4096, f (ValueIdx.ix2 b n) :=
  ValueIdx.sum_idx2 f

end Cert.Proof.RowLaw

end
-- ==== Proof.KernelIdeal.Row.lean ====
/- One query point's value. After the four key tiles of a run the kernel's running-minimum buffer holds, at row r,
   the minimum over the four tiles of the tile minima of |y|² − 2⟨x, y⟩, plus |x|², where x is the transformed query
   point and y ranges over the tile's keys; on real inputs this is the reference's minimum over all 4096 keys of
   (|x|² + |y|²) − 2⟨x, y⟩. The transformed point is real because the rotation matrix, the source point and the
   translation are. -/
import proofs.«166168_j66391604462138_2_alg».proof.Proof.KernelIdeal.Payloads
import proofs.«166168_j66391604462138_2_alg».proof.Proof.RefValue
import proofs.«166168_j66391604462138_2_alg».proof.Proof.RowLaw
import proofs.«166168_j66391604462138_2_alg».proof.Proof.LibRealEntries

noncomputable section

open scoped BigOperators

namespace Cert.KernelIdeal.Row

open Cert.KernelIdeal Cert.KernelIdeal.Gen Cert.KernelIdeal.Pay Idealize.ShloMosaic Idealize.ShloMosaic.ValueIdx
open Cert.ReferenceIdeal.RefValue Cert.RealEntries

/-- Every transformed coordinate is a real number when the source cloud, the rotation vector and the translation are. -/
theorem X_real (src : Vec Ideal S4x4096x3 .f32) (rot trans : Vec Ideal S3 .f32)
    (hsrc : ∀ i, ∃ r : ℝ, src i = (r : EReal)) (hrot : ∀ i, ∃ r : ℝ, rot i = (r : EReal))
    (htrans : ∀ i, ∃ r : ℝ, trans i = (r : EReal)) (p : S4x4096x3.Idx) : ∃ r : ℝ, X src rot trans p = (r : EReal) :=
  IsReal.add (IsReal.sum _ _ fun j _ => IsReal.mul (hsrc _) (Rot_real rot hrot _)) (htrans _)

/-- The running minimum after the four key tiles, plus the query norm, is the reference's minimum over all keys. -/
theorem row_eq (src tgt : Vec Ideal S4x4096x3 .f32) (rot trans : Vec Ideal S3 .f32)
    (hsrc : ∀ i, ∃ r : ℝ, src i = (r : EReal)) (htgt : ∀ i, ∃ r : ℝ, tgt i = (r : EReal))
    (hrot : ∀ i, ∃ r : ℝ, rot i = (r : EReal)) (htrans : ∀ i, ∃ r : ℝ, trans i = (r : EReal))
    (P1 : Vec Ideal S1x1024x3 .f32) (B0 B1 B2 B3 : Vec Ideal S1x3x1024 .f32) (b : Fin 4) (n : Fin 4096) (r : Fin 1024)
    (hP1 : ∀ d : Fin 3, P1 (ix3 (0 : Fin 1) r d) = X src rot trans (ix3 b n d))
    (hB0 : ∀ (d : Fin 3) (k : Fin 1024), B0 (ix3 (0 : Fin 1) d k) = tgt (ix3 b ⟨k.val, by omega⟩ d))
    (hB1 : ∀ (d : Fin 3) (k : Fin 1024), B1 (ix3 (0 : Fin 1) d k) = tgt (ix3 b ⟨1024 + k.val, by omega⟩ d))
    (hB2 : ∀ (d : Fin 3) (k : Fin 1024), B2 (ix3 (0 : Fin 1) d k) = tgt (ix3 b ⟨2048 + k.val, by omega⟩ d))
    (hB3 : ∀ (d : Fin 3) (k : Fin 1024), B3 (ix3 (0 : Fin 1) d k) = tgt (ix3 b ⟨3072 + k.val, by omega⟩ d)) :
    k0_pay5 (F := Ideal) P1 (k0_pay4 P1 B3 (k0_pay4 P1 B2 (k0_pay4 P1 B1 (k0_pay4 P1 B0 (k0_pay2 (F := Ideal))))))
        (ix3 (0 : Fin 1) r (0 : Fin 1))
      = Cert.ReferenceIdeal.RefValue.M src tgt rot trans b n := by
  rw [pay5_apply, pay4_apply, pay4_apply, pay4_apply, pay4_apply, pay2_apply]
  simp only [hP1, hB0, hB1, hB2, hB3]
  choose x hx using fun d : Fin 3 => X_real src rot trans hsrc hrot htrans (ix3 b n d)
  choose y hy using fun (m : Fin 4096) (d : Fin 3) => htgt (ix3 b m d)
  unfold Cert.ReferenceIdeal.RefValue.M D2 x2 y2
  simp only [hx, hy, LibNearestMin.ofBits_inf, LibNearestMin.ofBits_neg_two, LibNearestMin.ofBits_two,
    LibNearestMin.ofBits_zero, zero_add]
  exact Cert.Proof.RowLaw.row_law x y _ _ _ _ _ _ rfl (fun _ => rfl) (fun _ => rfl) (fun _ => rfl) (fun _ => rfl) (fun _ => rfl)

end Cert.KernelIdeal.Row

end
-- ==== Proof.KernelIdeal.Value.lean ====
/- The kernel's two results as functions of its arguments, at the extended reals. The transformed-points array is
   the reference's transformed points; the array of per-query minima holds, at (b, n, 0), the reference's minimum over
   all keys of the squared distance from the transformed query point (b, n) — for real inputs —, because the block
   written back after the last key tile of the run holds the running minimum of the four tile minima plus the query
   norm; and the scalar result is the mean of that array computed by the host lines after the launch. -/
import proofs.«166168_j66391604462138_2_alg».proof.Proof.KernelIdeal.Frame
import proofs.«166168_j66391604462138_2_alg».proof.Proof.KernelIdeal.Pieces
import proofs.«166168_j66391604462138_2_alg».proof.Proof.KernelIdeal.Blocks
import proofs.«166168_j66391604462138_2_alg».proof.Proof.KernelIdeal.Final4
import proofs.«166168_j66391604462138_2_alg».proof.Proof.KernelIdeal.Row
import proofs.«166168_j66391604462138_2_alg».proof.Proof.KernelIdeal.HostSide
import proofs.«166168_j66391604462138_2_alg».proof.Proof.RefValue
import Idealize.ShloMosaic.Lib.Pipeline.Value

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Blocks Cert.KernelIdeal.HostSide

variable (m : (ℓ : Loc nD τ sig) → Buf (Elt Ideal) ℓ) (ρ : Dev nD → PrngReg)

/-- The four argument arrays hold real numbers on core `c`. -/
def RealArgs (c : Dev nD) : Prop :=
  (∀ i, ∃ r : ℝ, (m ((c : Thread nD τ).loc main_arg0)) i = (r : EReal)) ∧ (∀ i, ∃ r : ℝ, (m ((c : Thread nD τ).loc main_arg1)) i = (r : EReal))
    ∧ (∀ i, ∃ r : ℝ, (m ((c : Thread nD τ).loc main_arg2)) i = (r : EReal)) ∧ (∀ i, ∃ r : ℝ, (m ((c : Thread nD τ).loc main_arg3)) i = (r : EReal))

/-- The per-query minima as one function of the arguments: the reference's minimum over all keys. -/
def G5 (c : Dev nD) : S4x4096x1.Idx → EReal := fun p =>
  Cert.ReferenceIdeal.RefValue.M (m ((c : Thread nD τ).loc main_arg0)) (m ((c : Thread nD τ).loc main_arg1)) (m ((c : Thread nD τ).loc main_arg2)) (m ((c : Thread nD τ).loc main_arg3)) (p 0) (p 1)

/-- What is written back after the last key tile of a run is the block of per-query minima of that (batch, query tile). -/
theorem flushed5_eq (c : Dev nD) (hre : RealArgs m c) (t : Fin cfg0.N) (hf : (cfg0.win 5).flush t = true) :
    (dats m 0 c).flushed 5 t = ((cfg0.win 5).blk t).view.read (Elt Ideal) (G5 m c) := by
  obtain ⟨hsrc, htgt, hrot, htrans⟩ := hre
  have h3 : t.val % 4 = 3 := (flush0_5 t).mp hf
  show (cfg0.win 5).cut (grid0.coords t) ((dats m 0 c).after 5 t) = _
  rw [after0_5]
  obtain ⟨tv, ht⟩ := t
  obtain ⟨n, rfl⟩ : ∃ n, tv = n + 3 := ⟨tv - 3, by dsimp only at h3; omega⟩
  have hn : n % 4 = 0 := by dsimp only at h3; omega
  have hN : n + 3 < 64 := lt_of_lt_of_eq ht (show cfg0.N = 64 from N_0)
  have hn' : n < cfg0.N := by omega
  have h1 : n + 1 < cfg0.N := by omega
  have h2 : n + 2 < cfg0.N := by omega
  rw [congrArg Prod.snd (outsAt0_run4 m c n hn ht)]
  funext j
  obtain ⟨r, rfl⟩ := Pay.idx_1x1024x1 j
  show k0_pay5 (F := Ideal) (k0_pay1 (F := Ideal) (iblk m c 0 ⟨n, hn'⟩) (iblk m c 2 ⟨n, hn'⟩) (iblk m c 3 ⟨n, hn'⟩))
      (k0_pay4 (k0_pay1 (F := Ideal) (iblk m c 0 ⟨n, hn'⟩) (iblk m c 2 ⟨n, hn'⟩) (iblk m c 3 ⟨n, hn'⟩)) (iblk m c 1 ⟨n + 3, ht⟩) (k0_pay4 (k0_pay1 (F := Ideal) (iblk m c 0 ⟨n, hn'⟩) (iblk m c 2 ⟨n, hn'⟩) (iblk m c 3 ⟨n, hn'⟩)) (iblk m c 1 ⟨n + 2, h2⟩) (k0_pay4 (k0_pay1 (F := Ideal) (iblk m c 0 ⟨n, hn'⟩) (iblk m c 2 ⟨n, hn'⟩) (iblk m c 3 ⟨n, hn'⟩)) (iblk m c 1 ⟨n + 1, h1⟩) (k0_pay4 (k0_pay1 (F := Ideal) (iblk m c 0 ⟨n, hn'⟩) (iblk m c 2 ⟨n, hn'⟩) (iblk m c 3 ⟨n, hn'⟩)) (iblk m c 1 ⟨n, hn'⟩) (k0_pay2 (F := Ideal)))))) (ix3 (0 : Fin 1) r (0 : Fin 1))
    = G5 m c (((cfg0.win 5).blk ⟨n + 3, ht⟩).view.emb (ix3 (0 : Fin 1) r (0 : Fin 1)))
  rw [emb5]
  unfold G5
  refine Row.row_eq _ _ _ _ hsrc htgt hrot htrans (k0_pay1 (F := Ideal) (iblk m c 0 ⟨n, hn'⟩) (iblk m c 2 ⟨n, hn'⟩) (iblk m c 3 ⟨n, hn'⟩)) (iblk m c 1 ⟨n, hn'⟩) (iblk m c 1 ⟨n + 1, h1⟩) (iblk m c 1 ⟨n + 2, h2⟩) (iblk m c 1 ⟨n + 3, ht⟩) (bOf ⟨n + 3, ht⟩) (rowOf ⟨n + 3, ht⟩ r) r ?_ ?_ ?_ ?_ ?_
  · intro d
    rw [Cert.ReferenceIdeal.RefValue.X_apply]
    refine (Pay.pay1_apply _ _ _ r d).trans ?_
    rw [iblk3_apply]
    refine congrArg₂ (· + ·) (Finset.sum_congr rfl fun j _ => ?_) rfl
    rw [iblk0_apply, iblk2_apply]
    have e0 : bOf ⟨n, hn'⟩ = bOf ⟨n + 3, ht⟩ := Fin.ext (by show n / 16 = (n + 3) / 16; omega)
    have er : rowOf ⟨n, hn'⟩ r = rowOf ⟨n + 3, ht⟩ r :=
      Fin.ext (by show 1024 * ((n / 4) % 4) + r.val = 1024 * (((n + 3) / 4) % 4) + r.val; omega)
    rw [e0, er]
  · intro d k
    rw [iblk1_apply]
    have e0 : bOf ⟨n, hn'⟩ = bOf ⟨n + 3, ht⟩ := Fin.ext (by show n / 16 = (n + 3) / 16; omega)
    have ek : keyOf ⟨n, hn'⟩ k = ⟨k.val, by omega⟩ :=
      Fin.ext (by show 1024 * (n % 4) + k.val = k.val; omega)
    rw [e0, ek]
  · intro d k
    rw [iblk1_apply]
    have e0 : bOf ⟨n + 1, h1⟩ = bOf ⟨n + 3, ht⟩ := Fin.ext (by show (n + 1) / 16 = (n + 3) / 16; omega)
    have ek : keyOf ⟨n + 1, h1⟩ k = ⟨1024 + k.val, by omega⟩ :=
      Fin.ext (by show 1024 * ((n + 1) % 4) + k.val = 1024 + k.val; omega)
    rw [e0, ek]
  · intro d k
    rw [iblk1_apply]
    have e0 : bOf ⟨n + 2, h2⟩ = bOf ⟨n + 3, ht⟩ := Fin.ext (by show (n + 2) / 16 = (n + 3) / 16; omega)
    have ek : keyOf ⟨n + 2, h2⟩ k = ⟨2048 + k.val, by omega⟩ :=
      Fin.ext (by show 1024 * ((n + 2) % 4) + k.val = 2048 + k.val; omega)
    rw [e0, ek]
  · intro d k
    rw [iblk1_apply]
    have ek : keyOf ⟨n + 3, ht⟩ k = ⟨3072 + k.val, by omega⟩ :=
      Fin.ext (by show 1024 * ((n + 3) % 4) + k.val = 3072 + k.val; omega)
    rw [ek]

/-- The array of per-query minima after the run. -/
theorem final5 (c : Dev nD) (hre : RealArgs m c) : (dats m 0 c).arrAt 5 cfg0.N = G5 m c :=
  (dats m 0 c).arrAt_eq_of_cover 5 _ (fun t hf => flushed5_eq m c hre t hf) cover5

instance : Subsingleton S_.Idx := ⟨fun a b => funext fun d => d.elim0⟩

/-- The scalar result: the mean of the per-query minima is the reference's loss. -/
theorem loss_eq (c : Dev nD) (hre : RealArgs m c) :
    Pipeline.afterTail₀ cfgs (dats m) 0 (V0 m) [hostOps1] c main_v52
      = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) := by
  refine funext fun (i : S_.Idx) => ?_
  obtain rfl : i = ix0 := Subsingleton.elim _ _
  refine (tail_v52 m (dats m) c).trans ?_
  rw [Cert.ReferenceIdeal.RefValue.out1_eq]
  refine congrArg₂ Ideal.div (congrArg₂ (· + ·) rfl (Finset.sum_congr rfl fun b _ => Finset.sum_congr rfl fun n _ => ?_)) rfl
  rw [minArr_eq, final5 m c hre]
  rfl

/-- The run, read: the two results at the reference's values, the arguments unchanged. -/
theorem run_value (hre : ∀ c, RealArgs m c) :
    θ_run defs (onTc (τ := τ) (main (F := Ideal))) ⟨m, fun _ => 0, ρ⟩ fun r => ∀ c : Dev nD,
      r.2.mem ((c.tc : Thread nD τ).loc main_v50_0)
          = Cert.ReferenceIdeal.RefValue.X (m ((c : Thread nD τ).loc main_arg0)) (m ((c : Thread nD τ).loc main_arg2)) (m ((c : Thread nD τ).loc main_arg3))
      ∧ r.2.mem ((c.tc : Thread nD τ).loc main_v52)
          = Cert.ReferenceIdeal.Read.val_main_v67 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 4).trans (final4 m c),
     ((h c).2 main_v52 (Pipeline.mem_restRefs_of main_v52 (by decide) (by decide))).trans (loss_eq m c (hre c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 3).trans (((dats m 0 c).arrAt_in 3 rfl _).trans ((A_eq m c 3).trans (V_main_arg3 m c)))⟩)
    (run_main m ρ)

end Cert.KernelIdeal.Val

end
-- ==== Proof.FiniteInputs.lean ====
/-
  Finiteness of the inputs, read back from the printed precondition: the predicate is the conjunction of four
  "all entries satisfy |x| < +∞" tests, one per argument array; each test is a reduction by "and" of the
  elementwise comparison max x (−x) < +∞ over the extended reals, and an extended real whose absolute value is
  below +∞ is a real number.
-/
import proofs.«166168_j66391604462138_2_alg».proof.Pre_finite_inputs
import proofs.«166168_j66391604462138_2_alg».proof.Proof.Gen.Pre_finite_inputs
import Idealize.ShloMosaic.Lib.ReduceAll
import Idealize.ShloMosaic.Lib.ValueIdx
import Idealize.ShloMosaic.PureOps.Ideal

set_option maxRecDepth 16384

noncomputable section

namespace Cert.Proof.Finite

open Idealize.ShloMosaic
open Cert.Pre_finite_inputs

/-- The rank-0 shape has a single index. -/
instance subsingleton_S_ : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value max x (−x) is strictly below +∞ is a real number. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  unfold Ideal.cmp at h'
  have hlt : max x (-x) < ⊤ := by
    by_contra hn
    simp [hn] at h'
  induction x using EReal.rec with
  | bot => simp at hlt
  | coe r => exact ⟨r, rfl⟩
  | top => simp at hlt

/-- THE PRECONDITION DECODED: when the predicate evaluates to 1 on the four argument arrays, every entry of
    every array is (the coercion of) a real number. -/
theorem real_of_pre (a0 a1 : FVec Ideal S4x4096x3 .f32) (a2 a3 : FVec Ideal S3 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) := by
  have e := congrFun h ValueIdx.ix0
  dsimp only [Cert.Pre_finite_inputs.fn, Cert.Pre_finite_inputs.fn_part1] at e
  have e' : IntOp.andi (IntOp.andi (IntOp.andi _ _) _) _ = 1#1 := e
  rw [IntOp.andi_eq_one, IntOp.andi_eq_one, IntOp.andi_eq_one] at e'
  obtain ⟨⟨⟨h0, h1⟩, h2⟩, h3⟩ := e'
  refine ⟨fun i => ?_, fun i => ?_, fun i => ?_, fun i => ?_⟩
  · exact real_of_abs_lt_top _ (Host.reduce_andi_all _ _ _ _ _ h0 i)
  · exact real_of_abs_lt_top _ (Host.reduce_andi_all _ _ _ _ _ h1 i)
  · exact real_of_abs_lt_top _ (Host.reduce_andi_all _ _ _ _ _ h2 i)
  · exact real_of_abs_lt_top _ (Host.reduce_andi_all _ _ _ _ _ h3 i)

end Cert.Proof.Finite

end
-- ==== Proof.lean ====
/- The certificate of the nearest-neighbour point-cloud kernel against its reference.
   Both programs build the rotation matrix R from the axis-angle vector by the same host lines, transform every source
   point as R·p + t, and average over all query points the squared distance to the nearest target point. The kernel
   walks the keys in four tiles of 1024, keeping in its output buffer the running minimum of |y|² − 2⟨x, y⟩ and adding
   |x|² after the last tile; the reference takes one minimum over all 4096 keys of (|x|² + |y|²) − 2⟨x, y⟩. On the
   extended reals the two agree when the inputs are real: then R, hence every transformed point, is real, adding the
   real |x|² commutes with the minimum, the four tiles cover the keys, and the two arrangements of the squared distance
   are equal real numbers. The transformed points themselves agree with no finiteness at all (the same products in the
   same order). The frames: each program runs to the end, faults nowhere and leaves its four arguments unchanged; the
   kernel's by the launch of its 4 x 4 x 4 grid with the body run in its three cases (first, middle, last key tile),
   the reference's by its straight host run. The idealization rewrote nothing. -/
import proofs.«166168_j66391604462138_2_alg».proof.Defs
import proofs.«166168_j66391604462138_2_alg».proof.Proof.Gen.Kernel
import proofs.«166168_j66391604462138_2_alg».proof.Proof.Gen.KernelIdeal
import proofs.«166168_j66391604462138_2_alg».proof.Proof.Gen.ReferenceIdeal
import proofs.«166168_j66391604462138_2_alg».proof.Proof.Gen.Pre_finite_inputs
import proofs.«166168_j66391604462138_2_alg».proof.Proof.Kernel.Frame
import proofs.«166168_j66391604462138_2_alg».proof.Proof.KernelIdeal.Frame
import proofs.«166168_j66391604462138_2_alg».proof.Proof.KernelIdeal.Value
import proofs.«166168_j66391604462138_2_alg».proof.Proof.RefLegs
import proofs.«166168_j66391604462138_2_alg».proof.Proof.RefValue
import proofs.«166168_j66391604462138_2_alg».proof.Proof.FiniteInputs

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem preserves : Cert.preserves_Kernel_KernelIdeal := trivial

/-- Both idealized programs, from memories agreeing on real arguments, end with the same transformed cloud and the same
    mean nearest-neighbour distance. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.Proof.Finite.real_of_pre _ _ _ _ (hpre c)
  refine ⟨_, _, Cert.KernelIdeal.Val.run_value m ρ hfin, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v51_eq, Cert.ReferenceIdeal.RefValue.out0_eq,
      (hagree c).1, (hagree c).2.2.1, (hagree c).2.2.2]
  · rw [(h c).2.1, Cert.ReferenceIdeal.Read.val_main_v67_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
